-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S3x128 : Shape := ⟨2, ![3, 128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S3x128 : S_.BroadcastsInDim S3x128 (![] : Fin 0 → Fin S3x128.rank)
  reducesTo_S3x128_S_d0_1 : S3x128.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S3x128 .f32) (main_arg9 : FVec F S128x128 .f32) (main_arg10 : FVec F S128 .f32) (main_arg11 : FVec F S40x128 .f32) (main_arg12 : FVec F S40 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S40x128 .f32 := Host.absf main_arg11
  let main_cst_18 : FVec F S_ .f32 := constant S_ .f32 0x7F800000#32
  let main_v50 : FVec F S40x128 .f32 := broadcastInDim S40x128 ![] bcast_S_S40x128 main_cst_18
  fn_part3 (F := F) main_arg12 main_v48 main_v49 main_v50

def fn_part1 {F : FTy → Type} [FloatOps F] (main_arg5 : FVec F S128x128 .f32) (main_arg6 : FVec F S128 .f32) (main_arg7 : FVec F S3x128 .f32) (main_arg8 : FVec F S3x128 .f32) (main_arg9 : FVec F S128x128 .f32) (main_arg10 : FVec F S128 .f32) (main_arg11 : FVec F S40x128 .f32) (main_arg12 : FVec F S40 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S2x128x128 .f32) (main_arg5 : FVec F S128x128 .f32) (main_arg6 : FVec F S128 .f32) (main_arg7 : FVec F S3x128 .f32) (main_arg8 : FVec F S3x128 .f32) (main_arg9 : FVec F S128x128 .f32) (main_arg10 : FVec F S128 .f32) (main_arg11 : FVec F S40x128 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S3x128 : Shape := ⟨2, ![3, 128]⟩
abbrev S40x128 : Shape := ⟨2, ![40, 128]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S1x128x128 : Shape := ⟨3, ![1, 128, 128]⟩
abbrev S50000x1 : Shape := ⟨2, ![50000, 1]⟩
abbrev S5000x1 : Shape := ⟨2, ![5000, 1]⟩
abbrev S850000x128 : Shape := ⟨2, ![850000, 128]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 114
  | .vmem => 58
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S2x128x128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3x128, .f32⟩
  | .hbm, ⟨9, _⟩ => ⟨S128x128, .f32⟩
  | .hbm, ⟨10, _⟩ => ⟨S128, .f32⟩
  | .hbm, ⟨11, _⟩ => ⟨S40x128, .f32⟩
  | .hbm, ⟨12, _⟩ => ⟨S40, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S50000, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S128, .f32⟩
  | .hbm, ⟨31, _⟩ => ⟨S128x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S128x128, .f32⟩
  | .hbm, ⟨44, _⟩ => ⟨S50000x1, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S128x128, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S1x128x128, .f32⟩
  | .hbm, ⟨76, _⟩ => ⟨S128x128, .f32⟩
  | .hbm, ⟨77, _⟩ => ⟨S128x128, .f32⟩
  | .hbm, ⟨78, _⟩ => ⟨S50000x1, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S128, .f32⟩
  | .hbm, ⟨97, _⟩ => ⟨S128x128, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S128x128, .f32⟩
  | .hbm, ⟨110, _⟩ => ⟨S128x40, .f32⟩
  | .hbm, ⟨111, _⟩ => ⟨S1x128, .f32⟩
  | .hbm, ⟨112, _⟩ => ⟨S1x40, .f32⟩
  | .hbm, ⟨113, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S5000x1, .f32⟩
  | .local _ .vmem, ⟨33, _⟩ => ⟨S5000x1, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S128x40, .f32⟩
  | .local _ .vmem, ⟨55, _⟩ => ⟨S1x40, .f32⟩
  | .local _ .vmem, ⟨56, _⟩ => ⟨S5000x40, .f32⟩
  | .local _ .vmem, ⟨57, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53_0 : Ref sig .tc := ⟨.hbm, 73, rfl⟩
abbrev main_v53_1 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_5 : Ref sig .tc := ⟨.hbm, 80, rfl⟩
abbrev main_v59 : Ref sig .tc := ⟨.hbm, 81, rfl⟩
abbrev main_v60 : Ref sig .tc := ⟨.hbm, 82, rfl⟩
abbrev main_c_6 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82_0 : Ref sig .tc := ⟨.hbm, 107, rfl⟩
abbrev main_v82_1 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc4_stg8_0 : Ref sig .tc := ⟨.vmem, 48, rfl⟩
abbrev cc4_stg8_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem7_1 : DmaSem sig := 47
abbrev cc4_sem8_0 : DmaSem sig := 48
abbrev cc4_sem8_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x40 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128_S1x128_0_0 : S3x128.Slices ![0, 0] S1x128
  shapeCasts_S1x128_S128 : S1x128.ShapeCasts S128
  transposes_S128x128_S128x128_1_0 : S128x128.Transposes [1, 0] S128x128
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128_S1x128_1_0 : S3x128.Slices ![1, 0] S1x128
  slices_S2x128x128_S1x128x128_1_0_0 : S2x128x128.Slices ![1, 0, 0] S1x128x128
  slices_S3x128_S1x128_2_0 : S3x128.Slices ![2, 0] S1x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S50000x128.size a
  hwx4_8 : ∀ i : grid4.Coords, EltTy.bits .f32 = 32 ∨ (Rect.block (s := S50000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x40.size a ≤ S128x40.size a
  hwx5_3 : ∀ i : grid5.Coords, EltTy.bits .f32 = 32 ∨ (Rect.block (s := S128x40) S128x40.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x40.size a ≤ S1x40.size a
  hwx5_4 : ∀ i : grid5.Coords, EltTy.bits .f32 = 32 ∨ (Rect.block (s := S1x40) S1x40.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x40.size a ≤ S50000x40.size a
  hwx5_5 : ∀ i : grid5.Coords, EltTy.bits .f32 = 32 ∨ (Rect.block (s := S50000x40) S5000x40.size (cc5_transform_5 i) (hinb5_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S5000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v53_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v53_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v53_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53_1) S5000x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v82_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v82_1) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v82_1) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S128x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x40.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S3x128 : Shape := ⟨2, ![3, 128]⟩
abbrev S40x128 : Shape := ⟨2, ![40, 128]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x128x128 : Shape := ⟨3, ![1, 128, 128]⟩
abbrev S850000x128 : Shape := ⟨2, ![850000, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S2x128x128, .f32⟩
  | 5 => ⟨S128x128, .f32⟩
  | 6 => ⟨S128, .f32⟩
  | 7 => ⟨S3x128, .f32⟩
  | 8 => ⟨S3x128, .f32⟩
  | 9 => ⟨S128x128, .f32⟩
  | 10 => ⟨S128, .f32⟩
  | 11 => ⟨S40x128, .f32⟩
  | 12 => ⟨S40, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S1x128, .f32⟩
  | 52 => ⟨S128, .f32⟩
  | 53 => ⟨S1x128, .f32⟩
  | 54 => ⟨S128, .f32⟩
  | 55 => ⟨S_, .f32⟩
  | 56 => ⟨S_, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x128x128, .f32⟩
  | 70 => ⟨S128x128, .f32⟩
  | 71 => ⟨S128x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S128x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128x128, .f32⟩
  | 114 => ⟨S128x128, .f32⟩
  | 115 => ⟨S128x128, .f32⟩
  | 116 => ⟨S50000x128, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x128, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S128x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S_, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S128x128, .f32⟩
  | 30 => ⟨S50000x128, .f32⟩
  | 31 => ⟨S1x128, .f32⟩
  | 32 => ⟨S50000x128, .f32⟩
  | 33 => ⟨S50000x128, .f32⟩
  | 34 => ⟨S128x40, .f32⟩
  | 35 => ⟨S50000x40, .f32⟩
  | 36 => ⟨S1x40, .f32⟩
  | 37 => ⟨S50000x40, .f32⟩
  | 38 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_5 : Ref sig .tc := ⟨.hbm, 73, rfl⟩
abbrev main_v51 : Ref sig .tc := ⟨.hbm, 74, rfl⟩
abbrev main_v52 : Ref sig .tc := ⟨.hbm, 75, rfl⟩
abbrev main_c_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call1_cst : Ref sig .tc := ⟨.hbm, 109, rfl⟩
abbrev main_call1_v0 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_9 : Ref sig .tc := ⟨.hbm, 117, rfl⟩
abbrev main_v89 : Ref sig .tc := ⟨.hbm, 118, rfl⟩
abbrev main_v90 : Ref sig .tc := ⟨.hbm, 119, rfl⟩
abbrev main_c_10 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_11 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_12 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_call2_cst : Ref sig .tc := ⟨.hbm, 153, rfl⟩
abbrev main_call2_v0 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  slices_S3x128_S1x128_1_0 : S3x128.Slices ![1, 0] S1x128
  slices_S2x128x128_S1x128x128_1_0_0 : S2x128x128.Slices ![1, 0, 0] S1x128x128
  slices_S3x128_S1x128_2_0 : S3x128.Slices ![2, 0] S1x128
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KCarry.lean ====
/-
  Which buffers keep their contents between segment boundaries of the idealized kernel program.

  The program's run is a fold over the buffer contents at twelve boundaries: an odd boundary follows a stretch of
  host operations, an even one a tiled region. A buffer that a stretch's operations do not write, and that is
  neither an output of a region nor anything but an input it only reads, holds at the later boundary what it
  held at the earlier one. Each lemma walks one buffer back over the boundaries between its last write and the
  place it is read.
-/
import proofs.«162505_j1623497638167_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- Buffer `main_arg4` is not written between boundaries 0 and 2. -/
theorem keep_arg4_2_0 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v11` is not written between boundaries 1 and 2. -/
theorem keep_v11_2_1 (c : Dev nD) : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)

/-- Buffer `main_v6` is not written between boundaries 1 and 4. -/
theorem keep_v6_4_1 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- Buffer `main_v3` is not written between boundaries 1 and 4. -/
theorem keep_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer `main_v11` is not written between boundaries 1 and 4. -/
theorem keep_v11_4_1 (c : Dev nD) : W4 m ρ c (Proc.devRef .tc main_v11) = W1 m ρ c (Proc.devRef .tc main_v11) :=
  calc W4 m ρ c (Proc.devRef .tc main_v11)
    _ = W3 m ρ c (Proc.devRef .tc main_v11) := W4_of_ne m ρ c main_v11 (by decide)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)

/-- Buffer `main_arg5` is not written between boundaries 0 and 4. -/
theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg6` is not written between boundaries 0 and 4. -/
theorem keep_arg6_4_0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg7` is not written between boundaries 0 and 4. -/
theorem keep_arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg8` is not written between boundaries 0 and 4. -/
theorem keep_arg8_4_0 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v24` is not written between boundaries 2 and 4. -/
theorem keep_v24_4_2 (c : Dev nD) : W4 m ρ c (Proc.devRef .tc main_v24) = W2 m ρ c (Proc.devRef .tc main_v24) :=
  calc W4 m ρ c (Proc.devRef .tc main_v24)
    _ = W3 m ρ c (Proc.devRef .tc main_v24) := (W4_arr m ρ c 0).trans (((dat1 (V3 m ρ) c).arrAt_in 0 rfl _).trans (A_eq1 (V3 m ρ) c 0))
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg4` is not written between boundaries 0 and 6. -/
theorem keep_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v11` is not written between boundaries 1 and 6. -/
theorem keep_v11_6_1 (c : Dev nD) : W6 m ρ c (Proc.devRef .tc main_v11) = W1 m ρ c (Proc.devRef .tc main_v11) :=
  calc W6 m ρ c (Proc.devRef .tc main_v11)
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := W4_of_ne m ρ c main_v11 (by decide)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)

/-- Buffer `main_v6` is not written between boundaries 1 and 8. -/
theorem keep_v6_8_1 (c : Dev nD) : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- Buffer `main_v3` is not written between boundaries 1 and 8. -/
theorem keep_v3_8_1 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer `main_v11` is not written between boundaries 1 and 8. -/
theorem keep_v11_8_1 (c : Dev nD) : W8 m ρ c (Proc.devRef .tc main_v11) = W1 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := W4_of_ne m ρ c main_v11 (by decide)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)

/-- Buffer `main_arg5` is not written between boundaries 0 and 8. -/
theorem keep_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg6` is not written between boundaries 0 and 8. -/
theorem keep_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg7` is not written between boundaries 0 and 8. -/
theorem keep_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg8` is not written between boundaries 0 and 8. -/
theorem keep_arg8_8_0 (c : Dev nD) : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v53_1` is not written between boundaries 6 and 8. -/
theorem keep_v53_1_8_6 (c : Dev nD) : W8 m ρ c (Proc.devRef .tc main_v53_1) = W6 m ρ c (Proc.devRef .tc main_v53_1) :=
  calc W8 m ρ c (Proc.devRef .tc main_v53_1)
    _ = W7 m ρ c (Proc.devRef .tc main_v53_1) := W8_of_ne m ρ c main_v53_1 (by decide)
    _ = W6 m ρ c (Proc.devRef .tc main_v53_1) := StableHlo.after_of_forall_not_mem (b := Proc.devRef .tc main_v53_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg9` is not written between boundaries 0 and 10. -/
theorem keep_arg9_10_0 (c : Dev nD) : W10 m ρ c (Proc.devRef .tc main_arg9) = W0 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg10` is not written between boundaries 0 and 10. -/
theorem keep_arg10_10_0 (c : Dev nD) : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg11` is not written between boundaries 0 and 10. -/
theorem keep_arg11_10_0 (c : Dev nD) : W10 m ρ c (Proc.devRef .tc main_arg11) = W0 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg12` is not written between boundaries 0 and 10. -/
theorem keep_arg12_10_0 (c : Dev nD) : W10 m ρ c (Proc.devRef .tc main_arg12) = W0 m ρ c (Proc.devRef .tc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KValue

end
-- ==== Proof.KHost.lean ====
/-
  What the idealized kernel program's host operations leave in the buffers its regions read, at each segment
  boundary, as terms of the argument arrays.

  Between its tiled regions the program transposes the weight matrices, reshapes the bias vectors to rows and the
  per-node factor to a column, divides each scale vector by a constant, and gathers and scatter-adds along the edge
  list. These are the same host operations, on the same arguments, that the reference program performs, so each
  buffer is named here by the reference's own stage of that name (the two terms are equal by unfolding).
-/
import proofs.«162505_j1623497638167_2_alg».proof.Proof.Gen.KernelIdeal.Frame
import proofs.«162505_j1623497638167_2_alg».proof.Proof.Gen.ReferenceIdeal.Read
import proofs.«162505_j1623497638167_2_alg».proof.Proof.KCarry
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## After the first stretch of host operations: the weights, rows and graph data region 0 and the later stretches read -/

theorem b1_arg0 (c : Dev nD) : V1 m ρ c main_arg0 = (m ((c : Thread nD τ).loc main_arg0)) := by
  dsimp only [V1, W1, hostOps0]; after_results
theorem b1_v16 (c : Dev nD) : V1 m ρ c main_v16 = Cert.ReferenceIdeal.Read.val_main_v27 (F := Ideal) (m ((c : Thread nD τ).loc main_arg2)) := by
  dsimp only [V1, W1, hostOps0]; after_results; rfl
theorem b1_v22 (c : Dev nD) : V1 m ρ c main_v22 = (shapeCast S1x128 (m ((c : Thread nD τ).loc main_arg3)) shapeCasts_S128_S1x128 : S1x128.Idx → EReal) := by
  dsimp only [V1, W1, hostOps0]; after_results; rfl
theorem b1_v21 (c : Dev nD) : V1 m ρ c main_v21 = (shapeCast S1x128 (Cert.ReferenceIdeal.Read.val_main_v39 (F := Ideal) (m ((c : Thread nD τ).loc main_arg7))) shapeCasts_S128_S1x128 : S1x128.Idx → EReal) := by
  dsimp only [V1, W1, hostOps0]; after_results; rfl
theorem b1_v23 (c : Dev nD) : V1 m ρ c main_v23 = (shapeCast S1x128 (Cert.ReferenceIdeal.Read.val_main_v35 (F := Ideal) (m ((c : Thread nD τ).loc main_arg8))) shapeCasts_S128_S1x128 : S1x128.Idx → EReal) := by
  dsimp only [V1, W1, hostOps0]; after_results; rfl
theorem b1_v11 (c : Dev nD) : W1 m ρ c (Proc.devRef .tc main_v11) = Cert.ReferenceIdeal.Read.val_main_v11 (F := Ideal) (m ((c : Thread nD τ).loc main_arg1)) := by
  dsimp only [W1, hostOps0]; after_results; rfl
theorem b1_v3 (c : Dev nD) : W1 m ρ c (Proc.devRef .tc main_v3) = Cert.ReferenceIdeal.Read.val_main_v3 (F := Ideal) (m ((c : Thread nD τ).loc main_arg1)) := by
  dsimp only [W1, hostOps0]; after_results; rfl
theorem b1_v6 (c : Dev nD) : W1 m ρ c (Proc.devRef .tc main_v6) = Cert.ReferenceIdeal.Read.val_main_v6 (F := Ideal) (m ((c : Thread nD τ).loc main_arg1)) := by
  dsimp only [W1, hostOps0]; after_results; rfl

/-! ## After the second stretch: region 1's operands -/

theorem b3_v24 (c : Dev nD) : V3 m ρ c main_v24 = W2 m ρ c (Proc.devRef .tc main_v24) := by
  dsimp only [V3, W3, hostOps1]; after_results
theorem b3_v27 (c : Dev nD) : V3 m ρ c main_v27 = Cert.ReferenceIdeal.Read.val_main_v49 (F := Ideal) (m ((c : Thread nD τ).loc main_arg4)) := by
  dsimp only [V3, W3, hostOps1]; after_results; simp only [keep_arg4_2_0 m ρ c] <;> rfl
theorem b3_v28 (c : Dev nD) : V3 m ρ c main_v28 = (shapeCast S50000x1 (Cert.ReferenceIdeal.Read.val_main_v11 (F := Ideal) (m ((c : Thread nD τ).loc main_arg1))) shapeCasts_S50000_S50000x1 : S50000x1.Idx → EReal) := by
  dsimp only [V3, W3, hostOps1]; after_results; simp only [keep_v11_2_1 m ρ c, b1_v11 m ρ c] <;> rfl

/-! ## After the third stretch: region 2's operands -/

set_option maxHeartbeats 400000 in
theorem b5_v39 (c : Dev nD) : V5 m ρ c main_v39 = (Host.scatterAdd scatter_S50000x128_S850000x1_S850000x128_1_0_0_1 (broadcastInDim S50000x128 ![] bcast_S_S50000x128 (constant (F := Ideal) S_ .f32 0x00000000#32)) (Cert.ReferenceIdeal.Read.val_main_v9 (F := Ideal) (m ((c : Thread nD τ).loc main_arg1))) (Host.gather gather_S50000x128_S850000x1_S850000x128_1_0_n_n_0_1_1128 (W4 m ρ c (Proc.devRef .tc main_v29)) (Cert.ReferenceIdeal.Read.val_main_v17 (F := Ideal) (m ((c : Thread nD τ).loc main_arg1)))) : S50000x128.Idx → EReal) := by
  dsimp only [V5, W5, hostOps2]; after_results_simp
  have e6 := (keep_v6_4_1 m ρ c).trans (b1_v6 m ρ c)
  have e3 := (keep_v3_4_1 m ρ c).trans (b1_v3 m ρ c)
  generalize W4 m ρ c (Proc.devRef .tc main_v6) = x6 at e6 ⊢
  generalize W4 m ρ c (Proc.devRef .tc main_v3) = x3 at e3 ⊢
  generalize W4 m ρ c (Proc.devRef .tc main_v29) = xs
  subst e6 e3
  rfl
theorem b5_v52 (c : Dev nD) : V5 m ρ c main_v52 = (shapeCast S50000x1 (Cert.ReferenceIdeal.Read.val_main_v11 (F := Ideal) (m ((c : Thread nD τ).loc main_arg1))) shapeCasts_S50000_S50000x1 : S50000x1.Idx → EReal) := by
  dsimp only [V5, W5, hostOps2]; after_results; simp only [keep_v11_4_1 m ρ c, b1_v11 m ρ c] <;> rfl
theorem b5_v44 (c : Dev nD) : V5 m ρ c main_v44 = Cert.ReferenceIdeal.Read.val_main_v64 (F := Ideal) (m ((c : Thread nD τ).loc main_arg5)) := by
  dsimp only [V5, W5, hostOps2]; after_results; simp only [keep_arg5_4_0 m ρ c] <;> rfl
theorem b5_v50 (c : Dev nD) : V5 m ρ c main_v50 = (shapeCast S1x128 ((m ((c : Thread nD τ).loc main_arg6))) shapeCasts_S128_S1x128 : S1x128.Idx → EReal) := by
  dsimp only [V5, W5, hostOps2]; after_results; simp only [keep_arg6_4_0 m ρ c] <;> rfl
theorem b5_v49 (c : Dev nD) : V5 m ρ c main_v49 = (shapeCast S1x128 (Cert.ReferenceIdeal.Read.val_main_v76 (F := Ideal) (m ((c : Thread nD τ).loc main_arg7))) shapeCasts_S128_S1x128 : S1x128.Idx → EReal) := by
  dsimp only [V5, W5, hostOps2]; after_results; simp only [keep_arg7_4_0 m ρ c] <;> rfl
theorem b5_v51 (c : Dev nD) : V5 m ρ c main_v51 = (shapeCast S1x128 (Cert.ReferenceIdeal.Read.val_main_v72 (F := Ideal) (m ((c : Thread nD τ).loc main_arg8))) shapeCasts_S128_S1x128 : S1x128.Idx → EReal) := by
  dsimp only [V5, W5, hostOps2]; after_results; simp only [keep_arg8_4_0 m ρ c] <;> rfl
theorem b5_v24 (c : Dev nD) : V5 m ρ c main_v24 = W2 m ρ c (Proc.devRef .tc main_v24) := by
  dsimp only [V5, W5, hostOps2]; after_results; simp only [keep_v24_4_2 m ρ c]

/-! ## After the fourth stretch: region 3's operands -/

theorem b7_v53_0 (c : Dev nD) : V7 m ρ c main_v53_0 = W6 m ρ c (Proc.devRef .tc main_v53_0) := by
  dsimp only [V7, W7, hostOps3]; after_results
theorem b7_v56 (c : Dev nD) : V7 m ρ c main_v56 = Cert.ReferenceIdeal.Read.val_main_v87 (F := Ideal) (m ((c : Thread nD τ).loc main_arg4)) := by
  dsimp only [V7, W7, hostOps3]; after_results; simp only [keep_arg4_6_0 m ρ c] <;> rfl
theorem b7_v57 (c : Dev nD) : V7 m ρ c main_v57 = (shapeCast S50000x1 (Cert.ReferenceIdeal.Read.val_main_v11 (F := Ideal) (m ((c : Thread nD τ).loc main_arg1))) shapeCasts_S50000_S50000x1 : S50000x1.Idx → EReal) := by
  dsimp only [V7, W7, hostOps3]; after_results; simp only [keep_v11_6_1 m ρ c, b1_v11 m ρ c] <;> rfl

/-! ## After the fifth stretch: region 4's operands -/

set_option maxHeartbeats 400000 in
theorem b9_v68 (c : Dev nD) : V9 m ρ c main_v68 = (Host.scatterAdd scatter_S50000x128_S850000x1_S850000x128_1_0_0_1 (broadcastInDim S50000x128 ![] bcast_S_S50000x128 (constant (F := Ideal) S_ .f32 0x00000000#32)) (Cert.ReferenceIdeal.Read.val_main_v9 (F := Ideal) (m ((c : Thread nD τ).loc main_arg1))) (Host.gather gather_S50000x128_S850000x1_S850000x128_1_0_n_n_0_1_1128 (W8 m ρ c (Proc.devRef .tc main_v58)) (Cert.ReferenceIdeal.Read.val_main_v17 (F := Ideal) (m ((c : Thread nD τ).loc main_arg1)))) : S50000x128.Idx → EReal) := by
  dsimp only [V9, W9, hostOps4]; after_results_simp
  have e6 := (keep_v6_8_1 m ρ c).trans (b1_v6 m ρ c)
  have e3 := (keep_v3_8_1 m ρ c).trans (b1_v3 m ρ c)
  generalize W8 m ρ c (Proc.devRef .tc main_v6) = x6 at e6 ⊢
  generalize W8 m ρ c (Proc.devRef .tc main_v3) = x3 at e3 ⊢
  generalize W8 m ρ c (Proc.devRef .tc main_v58) = xs
  subst e6 e3
  rfl
theorem b9_v81 (c : Dev nD) : V9 m ρ c main_v81 = (shapeCast S50000x1 (Cert.ReferenceIdeal.Read.val_main_v11 (F := Ideal) (m ((c : Thread nD τ).loc main_arg1))) shapeCasts_S50000_S50000x1 : S50000x1.Idx → EReal) := by
  dsimp only [V9, W9, hostOps4]; after_results; simp only [keep_v11_8_1 m ρ c, b1_v11 m ρ c] <;> rfl
theorem b9_v73 (c : Dev nD) : V9 m ρ c main_v73 = Cert.ReferenceIdeal.Read.val_main_v64 (F := Ideal) (m ((c : Thread nD τ).loc main_arg5)) := by
  dsimp only [V9, W9, hostOps4]; after_results; simp only [keep_arg5_8_0 m ρ c] <;> rfl
theorem b9_v79 (c : Dev nD) : V9 m ρ c main_v79 = (shapeCast S1x128 ((m ((c : Thread nD τ).loc main_arg6))) shapeCasts_S128_S1x128 : S1x128.Idx → EReal) := by
  dsimp only [V9, W9, hostOps4]; after_results; simp only [keep_arg6_8_0 m ρ c] <;> rfl
theorem b9_v78 (c : Dev nD) : V9 m ρ c main_v78 = (shapeCast S1x128 (Cert.ReferenceIdeal.Read.val_main_v114 (F := Ideal) (m ((c : Thread nD τ).loc main_arg7))) shapeCasts_S128_S1x128 : S1x128.Idx → EReal) := by
  dsimp only [V9, W9, hostOps4]; after_results; simp only [keep_arg7_8_0 m ρ c] <;> rfl
theorem b9_v80 (c : Dev nD) : V9 m ρ c main_v80 = (shapeCast S1x128 (Cert.ReferenceIdeal.Read.val_main_v110 (F := Ideal) (m ((c : Thread nD τ).loc main_arg8))) shapeCasts_S128_S1x128 : S1x128.Idx → EReal) := by
  dsimp only [V9, W9, hostOps4]; after_results; simp only [keep_arg8_8_0 m ρ c] <;> rfl
theorem b9_v53_1 (c : Dev nD) : V9 m ρ c main_v53_1 = W6 m ρ c (Proc.devRef .tc main_v53_1) := by
  dsimp only [V9, W9, hostOps4]; after_results; simp only [keep_v53_1_8_6 m ρ c]

/-! ## After the last stretch: region 5's operands -/

theorem b11_v82_1 (c : Dev nD) : V11 m ρ c main_v82_1 = W10 m ρ c (Proc.devRef .tc main_v82_1) := by
  dsimp only [V11, W11, hostOps5]; after_results
theorem b11_v83 (c : Dev nD) : V11 m ρ c main_v83 = Cert.ReferenceIdeal.Read.val_main_v123 (F := Ideal) (m ((c : Thread nD τ).loc main_arg9)) := by
  dsimp only [V11, W11, hostOps5]; after_results; simp only [keep_arg9_10_0 m ρ c] <;> rfl
theorem b11_v85 (c : Dev nD) : V11 m ρ c main_v85 = (shapeCast S1x128 ((m ((c : Thread nD τ).loc main_arg10))) shapeCasts_S128_S1x128 : S1x128.Idx → EReal) := by
  dsimp only [V11, W11, hostOps5]; after_results; simp only [keep_arg10_10_0 m ρ c] <;> rfl
theorem b11_v84 (c : Dev nD) : V11 m ρ c main_v84 = Cert.ReferenceIdeal.Read.val_main_v128 (F := Ideal) (m ((c : Thread nD τ).loc main_arg11)) := by
  dsimp only [V11, W11, hostOps5]; after_results; simp only [keep_arg11_10_0 m ρ c] <;> rfl
theorem b11_v86 (c : Dev nD) : V11 m ρ c main_v86 = (shapeCast S1x40 (m ((c : Thread nD τ).loc main_arg12)) shapeCasts_S40_S1x40 : S1x40.Idx → EReal) := by
  dsimp only [V11, W11, hostOps5]; after_results; simp only [keep_arg12_10_0 m ρ c] <;> rfl

end Cert.KernelIdeal.KValue

end
-- ==== Proof.KRun.lean ====
/-
  The idealized kernel program's run, with its result named.

  The program is six tiled regions among stretches of host operations. Its run is read as a fold over the buffer
  contents at the segment boundaries: a stretch applies its host operations, a region replaces its output arrays by
  what its grid points write back. Every weakly fair execution terminates without a fault, the argument arrays end
  as launched, and the result buffer ends at the last boundary's contents of the result array.
-/
import proofs.«162505_j1623497638167_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v87) = W12 m ρ c (Proc.devRef .tc main_v87)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KValue

end
-- ==== Proof.Spec.lean ====
/-
  A two-layer graph convolution network on a graph of nodes and edges, written index by index over the extended
  reals.

  Notation. `mmT a w` is the matrix product `a · w` of an `M × K` by a `K × N` array. `bnRelu z b sc bt` adds the bias
  row `b`, multiplies by the scale row `sc`, adds the shift row `bt` and clips at zero. `scaleRows z d` multiplies row
  `n` of `z` by `d n`. An edge `e` LANDS on node `n` when the integer in row `e` of the destination column `dcol` is
  `n`; `srcRow col e` is the node row that a gather along the column `col` reads for edge `e` (the integer clamped
  into the node range). `gatherSum u nsrc dcol` sums, for each node, the rows of `u` gathered along `nsrc` over the
  edges landing on it. `dis` is the per-node factor `1/√degree`.

  The aggregation is written twice. `aggR` weights the message of edge `e` by `dis (source e) · dis (destination e)` and
  then sums the messages landing on `n`. The other form scales the rows by `dis` first, gathers and sums, and scales
  the rows of the sum by `dis` again. The two agree (`scale_gatherSum_scale`) because on the edges landing on `n`
  the destination is `n`, and because `dis n` is a non-negative real whenever at least one edge lands on `n`:
  multiplying by a non-negative real distributes over a sum of extended reals, and when no edge lands both sides
  are zero.
-/
import Idealize.ShloMosaic.PureOps.Ideal.Laws
import Idealize.ShloMosaic.Lib.ValueIdx

noncomputable section

namespace Cert.Gcn

open Idealize.ShloMosaic Idealize.ShloMosaic.ValueIdx

/-- A matrix of extended reals. -/
abbrev Arr (a b : Nat) := (⟨2, ![a, b]⟩ : Shape).Idx → EReal
/-- A vector of extended reals. -/
abbrev Arr1 (a : Nat) := (⟨1, ![a]⟩ : Shape).Idx → EReal
/-- A column of 32-bit integers, one per edge. -/
abbrev Col (E : Nat) := IVec (⟨2, ![E, 1]⟩ : Shape) 32

variable {M K N E C : Nat}

/-- The matrix product `a · w`. -/
def mmT (a : Arr M K) (w : Arr K N) : Arr M N := fun j => ∑ k : Fin K, a (ix2 (j 0) k) * w (ix2 k (j 1))

/-- A `1 × N` array read as a row vector. -/
def row1 (b : Arr 1 N) : Arr1 N := fun i => b (ix2 (0 : Fin 1) (i 0))

/-- An `N × 1` array read as a column vector. -/
def col1 (d : Arr N 1) : Arr1 N := fun i => d (ix2 (i 0) (0 : Fin 1))

/-- Add the row vector `b` to every row. -/
def addRow (z : Arr M N) (b : Arr1 N) : Arr M N := fun j => z j + b (ix1 (j 1))

/-- Bias, scale, shift, clip at zero, column by column. -/
def bnRelu (z : Arr M N) (b sc bt : Arr1 N) : Arr M N :=
  fun j => max ((z j + b (ix1 (j 1))) * sc (ix1 (j 1)) + bt (ix1 (j 1))) 0

/-- The entrywise maximum. -/
def maxArr (a b : Arr M N) : Arr M N := fun j => max (a j) (b j)

/-- Multiply row `n` by `d n`. -/
def scaleRows (z : Arr M N) (d : Arr1 M) : Arr M N := fun j => z j * d (ix1 (j 0))

/-- The edges landing on node `n`. -/
def lands (dcol : Col E) (n : Fin N) : Finset (Fin E) :=
  Finset.univ.filter fun e : Fin E => (dcol (ix2 e (0 : Fin 1))).toInt = (n.val : Int)

/-- The node row a gather along `col` reads for edge `e`: the integer, clamped into the node range. -/
def srcRow (hN : 0 < N) (col : Col E) (e : Fin E) : Fin N :=
  ⟨min (col (ix2 e (0 : Fin 1))).toInt.toNat (N - 1), by omega⟩

/-- For each node, the sum over the edges landing on it of the rows of `u` gathered along `nsrc`. -/
def gatherSum (hN : 0 < N) (u : Arr N C) (nsrc dcol : Col E) : Arr N C :=
  fun j => 0 + ∑ e ∈ lands dcol (j 0), u (ix2 (srcRow hN nsrc e) (j 1))

/-- The aggregation with both factors inside the sum. -/
def aggR (hN : 0 < N) (y : Arr N C) (dis : Arr1 N) (nsrc ndst dcol : Col E) : Arr N C :=
  fun j => 0 + ∑ e ∈ lands dcol (j 0),
    y (ix2 (srcRow hN nsrc e) (j 1)) * (dis (ix1 (srcRow hN nsrc e)) * dis (ix1 (srcRow hN ndst e)))

/-- What is needed of the graph data at node `n`: on the edges landing on `n` the gathered destination row is `n`,
    and either no edge lands on `n` or the node's factor is a non-negative real. -/
structure GoodAt (hN : 0 < N) (dis : Arr1 N) (ndst dcol : Col E) (n : Fin N) : Prop where
  dst_eq : ∀ e ∈ lands dcol n, srcRow hN ndst e = n
  factor : lands dcol n = ∅ ∨ (0 ≤ dis (ix1 n) ∧ dis (ix1 n) ≠ ⊤)

/-- Multiplying a finite sum of extended reals by a non-negative real distributes. -/
theorem sum_mul_of_nonneg_of_ne_top {ι : Type*} (s : Finset ι) (f : ι → EReal) {x : EReal} (h0 : 0 ≤ x) (ht : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top h0 ht, ih]

/-- THE LAW: scale the rows, gather and sum, scale the rows again — that is the sum with both factors in. -/
theorem scale_gatherSum_scale (hN : 0 < N) (y : Arr N C) (dis : Arr1 N) (nsrc ndst dcol : Col E)
    (hg : ∀ n : Fin N, GoodAt hN dis ndst dcol n) :
    scaleRows (gatherSum hN (scaleRows y dis) nsrc dcol) dis = aggR hN y dis nsrc ndst dcol := by
  funext j
  obtain ⟨n, c, rfl⟩ : ∃ (n : Fin N) (c : Fin C), j = ix2 n c := ⟨j 0, j 1, eq_ix2 j⟩
  have hgn := hg n
  show (0 + ∑ e ∈ lands dcol n, y (ix2 (srcRow hN nsrc e) c) * dis (ix1 (srcRow hN nsrc e))) * dis (ix1 n)
    = 0 + ∑ e ∈ lands dcol n, y (ix2 (srcRow hN nsrc e) c) * (dis (ix1 (srcRow hN nsrc e)) * dis (ix1 (srcRow hN ndst e)))
  rw [zero_add, zero_add]
  have hsum : ∑ e ∈ lands dcol n, y (ix2 (srcRow hN nsrc e) c) * (dis (ix1 (srcRow hN nsrc e)) * dis (ix1 (srcRow hN ndst e)))
      = ∑ e ∈ lands dcol n, y (ix2 (srcRow hN nsrc e) c) * dis (ix1 (srcRow hN nsrc e)) * dis (ix1 n) :=
    Finset.sum_congr rfl fun e he => by rw [hgn.dst_eq e he, mul_assoc]
  rw [hsum]
  rcases hgn.factor with hempty | ⟨h0, ht⟩
  · rw [hempty, Finset.sum_empty, Finset.sum_empty, zero_mul]
  · exact sum_mul_of_nonneg_of_ne_top _ _ h0 ht

/-- One layer with the node factor applied to the rows before the gather and after the sum. -/
def layerK (hN : 0 < N) (h : Arr N K) (cw : Arr K C) (ww : Arr C M) (b sc bt : Arr1 M) (dis : Arr1 N) (nsrc dcol : Col E) : Arr N M :=
  bnRelu (mmT (scaleRows (gatherSum hN (scaleRows (mmT h cw) dis) nsrc dcol) dis) ww) b sc bt

/-- One layer with both factors on each edge's message. -/
def layerR (hN : 0 < N) (h : Arr N K) (cw : Arr K C) (ww : Arr C M) (b sc bt : Arr1 M) (dis : Arr1 N) (nsrc ndst dcol : Col E) : Arr N M :=
  bnRelu (mmT (aggR hN (mmT h cw) dis nsrc ndst dcol) ww) b sc bt

theorem layerK_eq_layerR (hN : 0 < N) (h : Arr N K) (cw : Arr K C) (ww : Arr C M) (b sc bt : Arr1 M) (dis : Arr1 N)
    (nsrc ndst dcol : Col E) (hg : ∀ n : Fin N, GoodAt hN dis ndst dcol n) :
    layerK hN h cw ww b sc bt dis nsrc dcol = layerR hN h cw ww b sc bt dis nsrc ndst dcol := by
  unfold layerK layerR
  rw [scale_gatherSum_scale hN _ dis nsrc ndst dcol hg]

/-- The output head: two affine maps. -/
def head {P : Nat} (jk : Arr N K) (fcT : Arr K M) (fcb : Arr1 M) (outT : Arr M P) (outb : Arr1 P) : Arr N P :=
  addRow (mmT (addRow (mmT jk fcT) fcb) outT) outb

/-- The whole network, node factor applied to rows (the first form). -/
def outK {P : Nat} (hN : 0 < N) (x : Arr N K) (w0 : Arr K M) (b0 sc0 bt0 : Arr1 M) (cw0 cw1 : Arr M M) (ww : Arr M M) (wb : Arr1 M)
    (sc1 bt1 sc2 bt2 : Arr1 M) (fcT : Arr M M) (fcb : Arr1 M) (outT : Arr M P) (outb : Arr1 P)
    (dis : Arr1 N) (nsrc dcol : Col E) : Arr N P :=
  let h0 := bnRelu (mmT x w0) b0 sc0 bt0
  let h1 := layerK hN h0 cw0 ww wb sc1 bt1 dis nsrc dcol
  let h2 := layerK hN h1 cw1 ww wb sc2 bt2 dis nsrc dcol
  head (maxArr (maxArr h0 h1) h2) fcT fcb outT outb

/-- The whole network, both factors on each edge's message (the second form). -/
def outR {P : Nat} (hN : 0 < N) (x : Arr N K) (w0 : Arr K M) (b0 sc0 bt0 : Arr1 M) (cw0 cw1 : Arr M M) (ww : Arr M M) (wb : Arr1 M)
    (sc1 bt1 sc2 bt2 : Arr1 M) (fcT : Arr M M) (fcb : Arr1 M) (outT : Arr M P) (outb : Arr1 P)
    (dis : Arr1 N) (nsrc ndst dcol : Col E) : Arr N P :=
  let h0 := bnRelu (mmT x w0) b0 sc0 bt0
  let h1 := layerR hN h0 cw0 ww wb sc1 bt1 dis nsrc ndst dcol
  let h2 := layerR hN h1 cw1 ww wb sc2 bt2 dis nsrc ndst dcol
  head (maxArr (maxArr h0 h1) h2) fcT fcb outT outb

theorem outK_eq_outR {P : Nat} (hN : 0 < N) (x : Arr N K) (w0 : Arr K M) (b0 sc0 bt0 : Arr1 M) (cw0 cw1 : Arr M M) (ww : Arr M M) (wb : Arr1 M)
    (sc1 bt1 sc2 bt2 : Arr1 M) (fcT : Arr M M) (fcb : Arr1 M) (outT : Arr M P) (outb : Arr1 P)
    (dis : Arr1 N) (nsrc ndst dcol : Col E) (hg : ∀ n : Fin N, GoodAt hN dis ndst dcol n) :
    outK hN x w0 b0 sc0 bt0 cw0 cw1 ww wb sc1 bt1 sc2 bt2 fcT fcb outT outb dis nsrc dcol
      = outR hN x w0 b0 sc0 bt0 cw0 cw1 ww wb sc1 bt1 sc2 bt2 fcT fcb outT outb dis nsrc ndst dcol := by
  unfold outK outR
  simp only [layerK_eq_layerR hN _ _ _ _ _ _ dis nsrc ndst dcol hg]

end Cert.Gcn

end
-- ==== Proof.LibRowScatter.lean ====
/-
  A gather of rows and a scatter-add of rows, read at an index, at the ideal values.

  Let `x` be an `N × C` array and `idx` a column of `E` integers (an `E × 1` array of words read as signed integers).

  The ROW GATHER of `x` at `idx` is the `E × C` array whose row `e` is row `idx e` of `x`, the integer first
  clamped into `[0, N − 1]`: entry `(e, c)` is `x (rowOf idx e, c)`, where the row `rowOf idx e` depends on the index
  column and on `e` only — not on the column `c`, nor on `x`.

  The ROW SCATTER-ADD of an `E × C` array `upd` into `x` along `idx` adds row `e` of `upd` to row `idx e` of `x`,
  for every `e`; a row whose integer is outside `[0, N − 1]` is dropped, not clamped. The update entry `(e, c')`
  lands on the entry `(n, c)` exactly when `idx e = n` as integers and `c' = c`. At the ideal values the colliding
  updates are summed exactly, so entry `(n, c)` of the result is `x (n, c)` plus the sum of `upd (e, c)` over the
  `e` with `idx e = n`.

  Scattering the constant `1` into zeros counts the updates that land on each entry: the result is a natural number.
-/
import Idealize.ShloMosaic.PureOps.Ideal.Laws
import Idealize.ShloMosaic.Lib.ValueIdx

noncomputable section

namespace Cert.LibRowScatter

open Idealize.ShloMosaic Idealize.ShloMosaic.ValueIdx

variable {N E C w : Nat}

/-! ### The row scatter -/

section Scatter

variable (d : ScatterDims ⟨2, ![N, C]⟩ ⟨2, ![E, 1]⟩ ⟨2, ![E, C]⟩)

/-- On the row axis the window starts at the update row's integer, read signed. -/
theorem start_row (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`: the scatter index names the row axis only. -/
theorem start_col (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 2) ∉ ([0] : List (Fin 2)) by decide)]

/-- The row axis is inserted: no window coordinate on it. -/
theorem window_row (huw : d.updateWindowDims = [1]) (hiw : d.insertedWindowDims = [0])
    (hsd : d.scatterDimsToOperandDims = [0]) (hiv : d.indexVectorDim = 1)
    (j : (⟨2, ![E, C]⟩ : Shape).Idx) : d.window j 0 = 0 := by
  obtain ⟨uw, iw, sd, iv, wf⟩ := d
  dsimp only at huw hiw hsd hiv
  subst huw hiw hsd hiv
  unfold ScatterDims.window
  exact dif_neg (show (0 : Fin 2) ∉ ([1] : List (Fin 2)) by decide)

/-- On the column axis the window coordinate is the update's column. -/
theorem window_col (huw : d.updateWindowDims = [1]) (hiw : d.insertedWindowDims = [0])
    (hsd : d.scatterDimsToOperandDims = [0]) (hiv : d.indexVectorDim = 1)
    (j : (⟨2, ![E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 2) ∈ ([1] : List (Fin 2)) by decide)).trans rfl

/-- Update entry `j` lands on entry `i` exactly when its row's integer is `i`'s row and the columns agree. -/
theorem rowScatter_resultIdx?_eq_some_iff (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) (i : (⟨2, ![N, C]⟩ : Shape).Idx) :
    d.resultIdx? j idx = some i ↔
      (idx (ix2 (j 0) (0 : Fin 1))).toInt = ((i 0).val : Int) ∧ (j 1).val = (i 1).val := by
  have hs0 := start_row d huw hiw hsd hiv idx j
  have hs1 := start_col d huw hiw hsd hiv idx j
  have hw0 := window_row d huw hiw hsd hiv j
  have hw1 := window_col d huw hiw hsd hiv j
  have hi0 := idx2_lt0 i
  have hi1 := idx2_lt1 i
  have hj1 := idx2_lt1 j
  unfold ScatterDims.resultIdx?
  constructor
  · intro h
    split at h
    · rename_i hr
      have hi := Option.some.inj h
      have e0 := congrArg (fun f => (f 0).val) hi
      have e1 := congrArg (fun f => (f 1).val) hi
      have r0 := hr 0
      simp only [hs0, hs1, hw0, hw1] at e0 e1 r0
      omega
    · exact absurd h (by simp)
  · rintro ⟨h0, h1⟩
    have hr : ∀ a, 0 ≤ d.start j idx a + d.window j a ∧
        d.start j idx a + d.window j a < (⟨2, ![N, C]⟩ : Shape).size a := by
      intro a
      match a with
      | ⟨0, _⟩ =>
        show 0 ≤ d.start j idx 0 + d.window j 0 ∧ d.start j idx 0 + d.window j 0 < ((N : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

/-- THE ROW SCATTER-ADD READ AT `(n, c)`: the operand's entry plus the sum, over the update rows `e` whose integer is
    `n`, of the update's entry `(e, c)`. -/
theorem hostScatterAdd_rows_apply (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) = x (ix2 n c) +
      ∑ e ∈ Finset.univ.filter (fun e : Fin E => (idx (ix2 e (0 : Fin 1))).toInt = (n.val : Int)), upd (ix2 e c) := by
  unfold Ideal.hostScatterAdd
  congr 1
  -- both sums as sums of indicator terms; the left one split into rows and columns
  rw [Finset.sum_filter, Finset.sum_filter, sum_idx2]
  refine Finset.sum_congr rfl fun e _ => ?_
  simp only [rowScatter_resultIdx?_eq_some_iff d huw hiw hsd hiv]
  -- in row `e` only the column `c` can contribute
  by_cases hA : (idx (ix2 e (0 : Fin 1))).toInt = (n.val : Int)
  · rw [if_pos hA, Finset.sum_eq_single c]
    · exact if_pos ⟨hA, rfl⟩
    · intro b _ hb
      exact if_neg fun h => hb (Fin.ext h.2)
    · intro h
      exact absurd (Finset.mem_univ c) h
  · rw [if_neg hA]
    exact Finset.sum_eq_zero fun b _ => if_neg fun h => hA h.1

end Scatter

/-! ### Counting the updates -/

/-- Scattering ones into zeros, with an `add` body, gives at every entry a natural number: how many updates land
    there. For any shapes and any dimension numbers. -/
theorem hostScatterAdd_zero_one_nat {s si u : Shape} (d : ScatterDims s si u) {w : Nat} (idx : IVec si w) (i : s.Idx) :
    ∃ k : ℕ, Ideal.hostScatterAdd d (fun _ => (0 : EReal)) idx (fun _ => (1 : EReal)) i = (k : EReal) := by
  refine ⟨(Finset.univ.filter (fun j => d.resultIdx? j idx = some i)).card, ?_⟩
  unfold Ideal.hostScatterAdd
  rw [zero_add, Finset.sum_const, nsmul_one]

/-! ### The row gather -/

/-- The row of the operand that row `e` of a gather reads: the integer `idx e`, clamped into `[0, N − 1]`. -/
def rowOf (hN : 0 < N) (idx : IVec ⟨2, ![E, 1]⟩ w) (e : Fin E) : Fin N :=
  ⟨min (idx (ix2 e (0 : Fin 1))).toInt.toNat (N - 1), by omega⟩

theorem rowOf_val (hN : 0 < N) (idx : IVec ⟨2, ![E, 1]⟩ w) (e : Fin E) :
    (rowOf hN idx e).val = min (idx (ix2 e (0 : Fin 1))).toInt.toNat (N - 1) := rfl

section Gather

variable {α : Type} (g : GatherDims ⟨2, ![N, C]⟩ ⟨2, ![E, 1]⟩ ⟨2, ![E, C]⟩)

/-- On the row axis the slice starts at the result row's integer, read signed and clamped into `[0, N − 1]`. -/
theorem gather_start_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) :
    g.start j idx 0 = min (idx (ix2 (j 0) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`: the start index names the row axis only. -/
theorem gather_start_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 2) ∉ ([0] : List (Fin 2)) by decide)

/-- The row axis is collapsed: no offset coordinate on it. -/
theorem gather_off_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 0 = 0 := by
  obtain ⟨od, cd, ob, sb, sm, iv, ss, wf⟩ := g
  dsimp only at hod hcd hob hsb hsm hiv hss
  subst hod hcd hob hsb hsm hiv hss
  unfold GatherDims.offCoord
  exact dif_neg (show (0 : Fin 2) ∉ ([1] : List (Fin 2)) by decide)

/-- On the column axis the offset coordinate is the result's column. -/
theorem gather_off_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 2) ∈ ([1] : List (Fin 2)) by decide)).trans rfl

/-- THE ROW GATHER READ AT `(e, c)`: the operand at row `rowOf idx e`, column `c`. -/
theorem gather_rows_apply (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c) = x (ix2 (rowOf hN idx e) c) := by
  have hb : ∀ a, g.batchCoord (ix2 e c) a = 0 := fun a =>
    g.batchCoord_eq_zero _ a (by rw [hob]; exact List.not_mem_nil)
  unfold Host.gather
  congr 1
  funext a
  refine Fin.ext ?_
  match a with
  | ⟨0, _⟩ =>
    show g.start (ix2 e c) idx 0 + g.batchCoord (ix2 e c) 0 + g.offCoord (ix2 e c) 0 = _
    rw [hb, gather_start_row g hod hcd hob hsb hsm hiv hss, gather_off_row g hod hcd hob hsb hsm hiv hss]
    rfl
  | ⟨1, _⟩ =>
    show g.start (ix2 e c) idx 1 + g.batchCoord (ix2 e c) 1 + g.offCoord (ix2 e c) 1 = _
    rw [hb, gather_start_col g hod hcd hob hsb hsm hiv hss, gather_off_col g hod hcd hob hsb hsm hiv hss]
    show 0 + 0 + c.val = c.val
    omega

/-- The same, with the clamped row written out. -/
theorem gather_rows_apply_min (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c)
      = x (ix2 (⟨min (idx (ix2 e (0 : Fin 1))).toInt.toNat (N - 1), by omega⟩ : Fin N) c) :=
  gather_rows_apply g hod hcd hob hsb hsm hiv hss hN x idx e c

end Gather

end Cert.LibRowScatter

end
-- ==== Proof.KOps.lean ====
/-
  The host operations between the kernel program's regions, read at the ideal values, over arbitrary operands.

  1. A vector reshaped to a one-row matrix and read as a row is the vector; reshaped to a one-column matrix and read
     as a column, likewise. (Both matrices list the vector's elements in the same row-major order.)

  2. A broadcast of the constant `+0.0` is the zero array.

  3. The convolution's host part: gather the rows of `u` along the source column, then scatter-add them into zeros
     along the destination column. Entry `(n, c)` of the result is `0` plus the sum, over the edges landing on `n`,
     of `u` at the gathered source row and column `c`: the row scatter-add keeps exactly the update rows whose
     integer is `n`, and the row gather reads the clamped source row.
-/
import proofs.«162505_j1623497638167_2_alg».proof.Proof.Gen.KernelIdeal.Frame
import proofs.«162505_j1623497638167_2_alg».proof.Proof.Spec
import proofs.«162505_j1623497638167_2_alg».proof.Proof.LibRowScatter
import Idealize.ShloMosaic.Lib.ValueIdx
import Idealize.ShloMosaic.Lib.Pipeline.Value
import Idealize.ShloMosaic.PureOps.Ideal.Laws

noncomputable section

namespace Cert.KernelIdeal.KOps

open Cert.KernelIdeal Cert.KernelIdeal.Gen Idealize.ShloMosaic Idealize.ShloMosaic.ValueIdx

/-! ### Reshapes of a vector to one row or one column -/

/-- A length-`n` vector reshaped to `1 × n` and read as a row is the vector: element `i` of the vector and entry
    `(0, i)` of the matrix have the same row-major position `i`. -/
theorem row1_reshape {n : Nat} (v : (⟨1, ![n]⟩ : Shape).Idx → EReal)
    (h : (⟨1, ![n]⟩ : Shape).ShapeCasts ⟨2, ![1, n]⟩) :
    Cert.Gcn.row1 (shapeCast ⟨2, ![1, n]⟩ v h) = v := by
  funext i
  show shapeCast ⟨2, ![1, n]⟩ v h (ix2 (0 : Fin 1) (i 0)) = v i
  exact shapeCast_apply v h (ix2 (0 : Fin 1) (i 0)) i
    (by rewrite [Shape.rowMajor_val_one, Shape.rowMajor_val_two]; show (i 0).val = 0 * n + (i 0).val; omega)

/-- A length-`n` vector reshaped to `n × 1` and read as a column is the vector: element `i` of the vector and entry
    `(i, 0)` of the matrix have the same row-major position `i`. -/
theorem col1_reshape' {n : Nat} (v : (⟨1, ![n]⟩ : Shape).Idx → EReal)
    (h : (⟨1, ![n]⟩ : Shape).ShapeCasts ⟨2, ![n, 1]⟩) :
    Cert.Gcn.col1 (shapeCast ⟨2, ![n, 1]⟩ v h) = v := by
  funext i
  show shapeCast ⟨2, ![n, 1]⟩ v h (ix2 (i 0) (0 : Fin 1)) = v i
  exact shapeCast_apply v h (ix2 (i 0) (0 : Fin 1)) i
    (by rewrite [Shape.rowMajor_val_one, Shape.rowMajor_val_two]; show (i 0).val = (i 0).val * 1 + 0; omega)

theorem row1_reshape128 (v : S128.Idx → EReal) :
    Cert.Gcn.row1 (shapeCast S1x128 v shapeCasts_S128_S1x128) = v :=
  row1_reshape v shapeCasts_S128_S1x128

theorem row1_reshape40 (v : S40.Idx → EReal) :
    Cert.Gcn.row1 (shapeCast S1x40 v shapeCasts_S40_S1x40) = v :=
  row1_reshape v shapeCasts_S40_S1x40

theorem col1_reshape (v : S50000.Idx → EReal) :
    Cert.Gcn.col1 (shapeCast S50000x1 v shapeCasts_S50000_S50000x1) = v :=
  col1_reshape' v shapeCasts_S50000_S50000x1

/-! ### The zero array -/

/-- The broadcast of the constant `+0.0` to `50000 × 128` is zero everywhere. -/
theorem zeros_eq :
    (broadcastInDim S50000x128 ![] bcast_S_S50000x128 (constant (F := Ideal) S_ .f32 0x00000000#32)
      : S50000x128.Idx → EReal) = fun _ => 0 := by
  funext j
  rw [broadcastInDim_apply _ bcast_S_S50000x128 _ j (fun a => a.elim0) (fun a => a.elim0), constant_apply]
  exact Ideal.ofBits_zero_f32

/-! ### Gather the rows, scatter-add them into zeros -/

/-- For any row gather and row scatter-add with these dimension numbers: the rows of `u` gathered along `nsrc` and
    scatter-added into zeros along `dcol` are, at `(n, c)`, the sum over the edges landing on `n` of `u` at the
    gathered source row and column `c`. -/
theorem conv_host {N E C : Nat} (hN : 0 < N)
    (d : ScatterDims ⟨2, ![N, C]⟩ ⟨2, ![E, 1]⟩ ⟨2, ![E, C]⟩)
    (g : GatherDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (hod : g.offsetDims = [1]) (hcd : g.collapsedSliceDims = [0])
    (hob : g.operandBatchingDims = []) (hsb : g.startIndicesBatchingDims = []) (hsm : g.startIndexMap = [0])
    (hgiv : g.indexVectorDim = 1) (hss : g.sliceSizes = ![1, C])
    (z : (⟨2, ![N, C]⟩ : Shape).Idx → EReal) (hz : z = fun _ => 0)
    (u : (⟨2, ![N, C]⟩ : Shape).Idx → EReal) (nsrc dcol : IVec ⟨2, ![E, 1]⟩ 32) :
    Ideal.hostScatterAdd d z dcol (Host.gather g u nsrc) = Cert.Gcn.gatherSum hN u nsrc dcol := by
  subst hz
  funext j
  obtain ⟨n, c, rfl⟩ : ∃ (n : Fin N) (c : Fin C), j = ix2 n c := ⟨j 0, j 1, eq_ix2 j⟩
  rw [Cert.LibRowScatter.hostScatterAdd_rows_apply d huw hiw hsd hiv]
  show (0 : EReal) + ∑ e ∈ Finset.univ.filter (fun e : Fin E => (dcol (ix2 e (0 : Fin 1))).toInt = (n.val : Int)),
      Host.gather g u nsrc (ix2 e c)
    = 0 + ∑ e ∈ Finset.univ.filter (fun e : Fin E => (dcol (ix2 e (0 : Fin 1))).toInt = (n.val : Int)),
      u (ix2 (Cert.LibRowScatter.rowOf hN nsrc e) c)
  congr 1
  exact Finset.sum_congr rfl fun e _ =>
    Cert.LibRowScatter.gather_rows_apply g hod hcd hob hsb hsm hgiv hss hN u nsrc e c

/-- THE CONVOLUTION'S HOST PART, for the kernel program's two records. -/
theorem conv_host_kernel (u : S50000x128.Idx → EReal) (nsrc dcol : IVec S850000x1 32) :
    Host.scatterAdd (F := Ideal) (φ := .f32) scatter_S50000x128_S850000x1_S850000x128_1_0_0_1
        (broadcastInDim S50000x128 ![] bcast_S_S50000x128 (constant (F := Ideal) S_ .f32 0x00000000#32)) dcol
        (Host.gather gather_S50000x128_S850000x1_S850000x128_1_0_n_n_0_1_1128 u nsrc)
      = Cert.Gcn.gatherSum (by norm_num : 0 < 50000) u nsrc dcol := by
  unfold Host.scatterAdd
  rw [Ideal.hostScatterAdd_def]
  exact conv_host (by norm_num) scatter_S50000x128_S850000x1_S850000x128_1_0_0_1
    gather_S50000x128_S850000x1_S850000x128_1_0_n_n_0_1_1128 rfl rfl rfl rfl rfl rfl rfl rfl rfl rfl rfl
    _ zeros_eq u nsrc dcol

end Cert.KernelIdeal.KOps

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.RegionsA.lean ====
/-
  The kernel's tiled regions as whole-array functions, at the ideal values.

  Each of these regions walks a one-dimensional grid of ten points. Point `t` stages rows `5000 t … 5000 t + 4999` of
  the row-tiled arrays and the whole of the weight and row-vector arrays, computes one block of 5000 rows, and writes
  it back to rows `5000 t … 5000 t + 4999` of the output. Every row of the output lies in exactly one block (row `r`
  in block `r / 5000`), and the value computed for a row depends only on that row of the row-tiled inputs, so the
  output array ends holding one function of the input arrays, index by index:

  * the first region: `max ((x · w + b) * scale + shift, 0)`;
  * the two scaled products: `(x · w) * d` with `d` one factor per row.
-/
import proofs.«162505_j1623497638167_2_alg».proof.Proof.Gen.KernelIdeal.Frame
import proofs.«162505_j1623497638167_2_alg».proof.Proof.Spec
import proofs.«162505_j1623497638167_2_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access. -/
theorem hz : (![0, 0] : Fin 2 → Nat) = fun _ => 0 := funext fun a => by fin_cases a <;> rfl

/-! ## Layout operations at an index -/

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scaled product's payload at an index -/

/-- One block of the scaled product, at row `p` and column `q`: the row of `x` times the column of `w`, times the
    row's factor. -/
theorem linScaled1_apply (x0 : Vec Ideal S5000x128 .f32) (x1 : Vec Ideal S128x128 .f32) (x2 : Vec Ideal S5000x1 .f32)
    (p : Fin 5000) (q : Fin 128) :
    k1_pay1 x0 x1 x2 (ix2 p q) = (∑ k : Fin 128, x0 (ix2 p k) * x1 (ix2 k q)) * x2 (ix2 p (0 : Fin 1)) := by
  unfold k1_pay1
  simp only [shapeCast_self]
  rw [mulf_apply]
  refine congrArg₂ (· * ·) ?_ ?_
  · exact MatmulSum.matmul_zero_apply dot_S5000x128_S128x128_S5000x128_1_0_0_1_n_n rfl rfl rfl rfl rfl rfl none x0 x1 (ix2 p q)
  · exact broadcastTo_a1_ab_apply x2 broadcasts_S5000x1_S5000x128 p q

/-- The same for the second scaled product's body: one block at row `p` and column `q`: the row of `x` times the column of `w`, times the
    row's factor. -/
theorem linScaled3_apply (x0 : Vec Ideal S5000x128 .f32) (x1 : Vec Ideal S128x128 .f32) (x2 : Vec Ideal S5000x1 .f32)
    (p : Fin 5000) (q : Fin 128) :
    k3_pay1 x0 x1 x2 (ix2 p q) = (∑ k : Fin 128, x0 (ix2 p k) * x1 (ix2 k q)) * x2 (ix2 p (0 : Fin 1)) := by
  unfold k3_pay1
  simp only [shapeCast_self]
  rw [mulf_apply]
  refine congrArg₂ (· * ·) ?_ ?_
  · exact MatmulSum.matmul_zero_apply dot_S5000x128_S128x128_S5000x128_1_0_0_1_n_n rfl rfl rfl rfl rfl rfl none x0 x1 (ix2 p q)
  · exact broadcastTo_a1_ab_apply x2 broadcasts_S5000x1_S5000x128 p q

/-- The scaled product at row `r` and column `q`. -/
theorem scaleRows_mmT_apply (A : Cert.Gcn.Arr 50000 128) (W : Cert.Gcn.Arr 128 128) (D : Cert.Gcn.Arr 50000 1) (r : Fin 50000) (q : Fin 128) :
    Cert.Gcn.scaleRows (Cert.Gcn.mmT A W) (Cert.Gcn.col1 D) (ix2 r q)
      = (∑ k : Fin 128, A (ix2 r k) * W (ix2 k q)) * D (ix2 r (0 : Fin 1)) := rfl

/-! ## The first region's payload at an index -/

/-- One block of the first region, at row `p` and column `q`: the row of `x` times the column of `w`, plus the bias,
    times the scale, plus the shift, clipped at zero. -/
theorem linBnAct_apply (x0 : Vec Ideal S5000x128 .f32) (x1 : Vec Ideal S128x128 .f32) (b sc sh : Vec Ideal S1x128 .f32)
    (p : Fin 5000) (q : Fin 128) :
    k0_pay1 x0 x1 b sc sh (ix2 p q)
      = max (((∑ k : Fin 128, x0 (ix2 p k) * x1 (ix2 k q)) + b (ix2 (0 : Fin 1) q)) * sc (ix2 (0 : Fin 1) q) + sh (ix2 (0 : Fin 1) q)) 0 := by
  unfold k0_pay1
  simp only [shapeCast_self]
  rw [maximumf_apply, addf_apply, mulf_apply, addf_apply, broadcast_apply]
  refine congrArg₂ max (congrArg₂ (· + ·) (congrArg₂ (· * ·) (congrArg₂ (· + ·) ?_ ?_) ?_) ?_) ?_
  · exact MatmulSum.matmul_zero_apply dot_S5000x128_S128x128_S5000x128_1_0_0_1_n_n rfl rfl rfl rfl rfl rfl none x0 x1 (ix2 p q)
  · exact broadcastTo_1b_ab_apply b broadcasts_S1x128_S5000x128 p q
  · exact broadcastTo_1b_ab_apply sc broadcasts_S1x128_S5000x128 p q
  · exact broadcastTo_1b_ab_apply sh broadcasts_S1x128_S5000x128 p q
  · exact Ideal.ofBits_zero_f32

/-- The first region's function at row `r` and column `q`. -/
theorem bnRelu_mmT_apply (A : Cert.Gcn.Arr 50000 128) (W : Cert.Gcn.Arr 128 128) (B S T : Cert.Gcn.Arr 1 128) (r : Fin 50000) (q : Fin 128) :
    Cert.Gcn.bnRelu (Cert.Gcn.mmT A W) (Cert.Gcn.row1 B) (Cert.Gcn.row1 S) (Cert.Gcn.row1 T) (ix2 r q)
      = max (((∑ k : Fin 128, A (ix2 r k) * W (ix2 k q)) + B (ix2 (0 : Fin 1) q)) * S (ix2 (0 : Fin 1) q) + T (ix2 (0 : Fin 1) q)) 0 := rfl

/-! ## The first region (region 0): from blocks to the array -/

section Region0

variable (V : (c : Dev nD) → (b : Ref sig .tc) → Buf (Elt Ideal) ((c : Thread nD τ).loc b))

/-- The printed index maps, decided over the grid: the row-tiled windows are at block `(t, 0)`, the weight and
    row-vector windows at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of `x` at point `t` is row `5000 t + p` of `x`. -/
theorem xblk0 (c : Dev nD) (t : Fin cfg0.N) (p : Fin 5000) (k : Fin 128) (r : Fin 50000) (hr : r.val = 5000 * t.val + p.val) :
    (iblk0 (F := Ideal) V c 0 t : Vec Ideal S5000x128 .f32) (ix2 p k) = (V c main_arg0 : S50000x128.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The block of `w` at any point is `w`. -/
theorem wblk0 (c : Dev nD) (t : Fin cfg0.N) (k : Fin 128) (q : Fin 128) :
    (iblk0 (F := Ideal) V c 1 t : Vec Ideal S128x128 .f32) (ix2 k q) = (V c main_v16 : S128x128.Idx → EReal) (ix2 k q) := by
  obtain ⟨-, -, e2, e3, -⟩ := idx_facts0 t
  unfold iblk0
  rw [View.read_apply]
  show V c main_v16 _ = V c main_v16 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- The block of the bias row at any point is the bias row. -/
theorem bblk0 (c : Dev nD) (t : Fin cfg0.N) (q : Fin 128) :
    (iblk0 (F := Ideal) V c 2 t : Vec Ideal S1x128 .f32) (ix2 (0 : Fin 1) q) = (V c main_v22 : S1x128.Idx → EReal) (ix2 (0 : Fin 1) q) := by
  obtain ⟨-, -, -, -, e4, e5, -⟩ := idx_facts0 t
  unfold iblk0
  rw [View.read_apply]
  show V c main_v22 _ = V c main_v22 _
  congr 1
  funext a
  apply Fin.ext
  match a with
  | ⟨0, _⟩ => show win0_2.index t (0 : Fin 2) * 1 + 1 * 0 = 0; omega
  | ⟨1, _⟩ => show win0_2.index t (1 : Fin 2) * 128 + 1 * q.val = q.val; omega

/-- The block of the scale row at any point is the scale row. -/
theorem sblk0 (c : Dev nD) (t : Fin cfg0.N) (q : Fin 128) :
    (iblk0 (F := Ideal) V c 3 t : Vec Ideal S1x128 .f32) (ix2 (0 : Fin 1) q) = (V c main_v21 : S1x128.Idx → EReal) (ix2 (0 : Fin 1) q) := by
  obtain ⟨-, -, -, -, -, -, e6, e7, -⟩ := idx_facts0 t
  unfold iblk0
  rw [View.read_apply]
  show V c main_v21 _ = V c main_v21 _
  congr 1
  funext a
  apply Fin.ext
  match a with
  | ⟨0, _⟩ => show win0_3.index t (0 : Fin 2) * 1 + 1 * 0 = 0; omega
  | ⟨1, _⟩ => show win0_3.index t (1 : Fin 2) * 128 + 1 * q.val = q.val; omega

/-- The block of the shift row at any point is the shift row. -/
theorem tblk0 (c : Dev nD) (t : Fin cfg0.N) (q : Fin 128) :
    (iblk0 (F := Ideal) V c 4 t : Vec Ideal S1x128 .f32) (ix2 (0 : Fin 1) q) = (V c main_v23 : S1x128.Idx → EReal) (ix2 (0 : Fin 1) q) := by
  obtain ⟨-, -, -, -, -, -, -, -, e8, e9, -⟩ := idx_facts0 t
  unfold iblk0
  rw [View.read_apply]
  show V c main_v23 _ = V c main_v23 _
  congr 1
  funext a
  apply Fin.ext
  match a with
  | ⟨0, _⟩ => show win0_4.index t (0 : Fin 2) * 1 + 1 * 0 = 0; omega
  | ⟨1, _⟩ => show win0_4.index t (1 : Fin 2) * 128 + 1 * q.val = q.val; omega

/-- Row `p` of the output's block at point `t` is row `5000 t + p` of the output. -/
theorem oblk0 (t : Fin cfg0.N) (p : Fin 5000) (q : Fin 128) (r : Fin 50000) (hr : r.val = 5000 * t.val + p.val) :
    ((cfg0.win 5).blk t).view.emb (ix2 p q) = (ix2 r q : S50000x128.Idx) := by
  obtain ⟨-, -, -, -, -, -, -, -, -, -, e10, e11⟩ := idx_facts0 t
  funext a
  apply Fin.ext
  match a with
  | ⟨0, _⟩ => show win0_5.index t (0 : Fin 2) * 5000 + 1 * p.val = r.val; omega
  | ⟨1, _⟩ => show win0_5.index t (1 : Fin 2) * 128 + 1 * q.val = q.val; omega

/-- What the output array of the first region ends holding. -/
abbrev G0 (c : Dev nD) : Cert.Gcn.Arr 50000 128 :=
  Cert.Gcn.bnRelu (Cert.Gcn.mmT (V c main_arg0) (V c main_v16)) (Cert.Gcn.row1 (V c main_v22)) (Cert.Gcn.row1 (V c main_v21)) (Cert.Gcn.row1 (V c main_v23))

/-- What point `t` writes back is block `t` of that array. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : cfg0.N = 10 := N_0
  have ht : t.val < 10 := hN ▸ t.isLt
  obtain ⟨r, hr⟩ : ∃ r : Fin 50000, r.val = 5000 * t.val + p.val := ⟨⟨5000 * t.val + p.val, by have := p.isLt; omega⟩, rfl⟩
  show k0_pay1 (iblk0 V c 0 t) (iblk0 V c 1 t) (iblk0 V c 2 t) (iblk0 V c 3 t) (iblk0 V c 4 t) (ix2 p q) = G0 V c (((cfg0.win 5).blk t).view.emb (ix2 p q))
  refine (linBnAct_apply _ _ _ _ _ p q).trans ?_
  rw [oblk0 t p q r hr, bblk0 V c t q, sblk0 V c t q, tblk0 V c t q]
  refine Eq.trans ?_ (bnRelu_mmT_apply (V c main_arg0) (V c main_v16) (V c main_v22) (V c main_v21) (V c main_v23) r q).symm
  refine congrArg₂ max (congrArg₂ (· + ·) (congrArg₂ (· * ·) (congrArg₂ (· + ·) (Finset.sum_congr rfl fun k _ => ?_) rfl) rfl) rfl) rfl
  rw [xblk0 V c t p k r hr, wblk0 V c t k q]

/-- An index of the output is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every row of the output is in a block: row `r` in block `r / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e10, e11⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array of the first region: `max ((x · w + b) * scale + shift, 0)`, column by column. -/
theorem final0 (c : Dev nD) : (Gen.dat0 (F := Ideal) V c).arrAt 5 cfg0.N
    = Cert.Gcn.bnRelu (Cert.Gcn.mmT (V c main_arg0) (V c main_v16)) (Cert.Gcn.row1 (V c main_v22)) (Cert.Gcn.row1 (V c main_v21)) (Cert.Gcn.row1 (V c main_v23)) :=
  (dat0 V c).arrAt_eq_of_cover 5 (G0 V c) (fun t _ => flushed0_eq V c t) cover0

end Region0

/-! ## The first scaled product (region 1): from blocks to the array -/

section Region1

variable (V : (c : Dev nD) → (b : Ref sig .tc) → Buf (Elt Ideal) ((c : Thread nD τ).loc b))

/-- The printed index maps, decided over the grid: the row-tiled windows are at block `(t, 0)`, the weight window at
    block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `p` of the block of `x` at point `t` is row `5000 t + p` of `x`. -/
theorem xblk1 (c : Dev nD) (t : Fin cfg1.N) (p : Fin 5000) (k : Fin 128) (r : Fin 50000) (hr : r.val = 5000 * t.val + p.val) :
    (iblk1 (F := Ideal) V c 0 t : Vec Ideal S5000x128 .f32) (ix2 p k) = (V c main_v24 : S50000x128.Idx → EReal) (ix2 r k) := by
  obtain ⟨e0, e1, -, -, -, -, -, -⟩ := idx_facts1 t
  unfold iblk1
  rw [View.read_apply]
  show V c main_v24 _ = V c main_v24 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The block of `w` at any point is `w`. -/
theorem wblk1 (c : Dev nD) (t : Fin cfg1.N) (k : Fin 128) (q : Fin 128) :
    (iblk1 (F := Ideal) V c 1 t : Vec Ideal S128x128 .f32) (ix2 k q) = (V c main_v27 : S128x128.Idx → EReal) (ix2 k q) := by
  obtain ⟨-, -, e2, e3, -, -, -, -⟩ := idx_facts1 t
  unfold iblk1
  rw [View.read_apply]
  show V c main_v27 _ = V c main_v27 _
  congr 1
  funext a
  apply Fin.ext
  match a with
  | ⟨0, _⟩ => show win1_1.index t (0 : Fin 2) * 128 + 1 * k.val = k.val; omega
  | ⟨1, _⟩ => show win1_1.index t (1 : Fin 2) * 128 + 1 * q.val = q.val; omega

/-- Row `p` of the block of the row factors at point `t` is row `5000 t + p`. -/
theorem dblk1 (c : Dev nD) (t : Fin cfg1.N) (p : Fin 5000) (r : Fin 50000) (hr : r.val = 5000 * t.val + p.val) :
    (iblk1 (F := Ideal) V c 2 t : Vec Ideal S5000x1 .f32) (ix2 p (0 : Fin 1)) = (V c main_v28 : S50000x1.Idx → EReal) (ix2 r (0 : Fin 1)) := by
  obtain ⟨-, -, -, -, e4, e5, -, -⟩ := idx_facts1 t
  unfold iblk1
  rw [View.read_apply]
  show V c main_v28 _ = V c main_v28 _
  congr 1
  funext a
  apply Fin.ext
  match a with
  | ⟨0, _⟩ => show win1_2.index t (0 : Fin 2) * 5000 + 1 * p.val = r.val; omega
  | ⟨1, _⟩ => show win1_2.index t (1 : Fin 2) * 1 + 1 * 0 = 0; omega

/-- Row `p` of the output's block at point `t` is row `5000 t + p` of the output. -/
theorem oblk1 (t : Fin cfg1.N) (p : Fin 5000) (q : Fin 128) (r : Fin 50000) (hr : r.val = 5000 * t.val + p.val) :
    ((cfg1.win 3).blk t).view.emb (ix2 p q) = (ix2 r q : S50000x128.Idx) := by
  obtain ⟨-, -, -, -, -, -, e6, e7⟩ := idx_facts1 t
  funext a
  apply Fin.ext
  match a with
  | ⟨0, _⟩ => show win1_3.index t (0 : Fin 2) * 5000 + 1 * p.val = r.val; omega
  | ⟨1, _⟩ => show win1_3.index t (1 : Fin 2) * 128 + 1 * q.val = q.val; omega

/-- What the output array of the first scaled product ends holding. -/
abbrev G1 (c : Dev nD) : Cert.Gcn.Arr 50000 128 :=
  Cert.Gcn.scaleRows (Cert.Gcn.mmT (V c main_v24) (V c main_v27)) (Cert.Gcn.col1 (V c main_v28))

/-- What point `t` writes back is block `t` of that array. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hN : cfg1.N = 10 := N_1
  have ht : t.val < 10 := hN ▸ t.isLt
  obtain ⟨r, hr⟩ : ∃ r : Fin 50000, r.val = 5000 * t.val + p.val := ⟨⟨5000 * t.val + p.val, by have := p.isLt; omega⟩, rfl⟩
  show k1_pay1 (iblk1 V c 0 t) (iblk1 V c 1 t) (iblk1 V c 2 t) (ix2 p q) = G1 V c (((cfg1.win 3).blk t).view.emb (ix2 p q))
  refine (linScaled1_apply _ _ _ p q).trans ?_
  rw [oblk1 t p q r hr, dblk1 V c t p r hr]
  refine Eq.trans ?_ (scaleRows_mmT_apply (V c main_v24) (V c main_v27) (V c main_v28) r q).symm
  refine congrArg₂ (· * ·) (Finset.sum_congr rfl fun k _ => ?_) rfl
  rw [xblk1 V c t p k r hr, wblk1 V c t k q]

/-- An index of the output is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v29).slice (win1_3.rect t)).set ↔ _
  rw [View.set_slice_whole, Rect.mem_set_unit]
  exact Iff.rfl

/-- Every row of the output is in a block: row `r` in block `r / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array of the first scaled product: `(x · w)` with row `n` multiplied by the factor of row `n`. -/
theorem final1 (c : Dev nD) : (Gen.dat1 (F := Ideal) V c).arrAt 3 cfg1.N
    = Cert.Gcn.scaleRows (Cert.Gcn.mmT (V c main_v24) (V c main_v27)) (Cert.Gcn.col1 (V c main_v28)) :=
  (dat1 V c).arrAt_eq_of_cover 3 (G1 V c) (fun t _ => flushed1_eq V c t) cover1

end Region1

/-! ## The second scaled product (region 3): from blocks to the array -/

section Region3

variable (V : (c : Dev nD) → (b : Ref sig .tc) → Buf (Elt Ideal) ((c : Thread nD τ).loc b))

/-- The printed index maps, decided over the grid: the row-tiled windows are at block `(t, 0)`, the weight window at
    block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p` of the block of `x` at point `t` is row `5000 t + p` of `x`. -/
theorem xblk3 (c : Dev nD) (t : Fin cfg3.N) (p : Fin 5000) (k : Fin 128) (r : Fin 50000) (hr : r.val = 5000 * t.val + p.val) :
    (iblk3 (F := Ideal) V c 0 t : Vec Ideal S5000x128 .f32) (ix2 p k) = (V c main_v53_0 : S50000x128.Idx → EReal) (ix2 r k) := by
  obtain ⟨e0, e1, -, -, -, -, -, -⟩ := idx_facts3 t
  unfold iblk3
  rw [View.read_apply]
  show V c main_v53_0 _ = V c main_v53_0 _
  congr 1
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- The block of `w` at any point is `w`. -/
theorem wblk3 (c : Dev nD) (t : Fin cfg3.N) (k : Fin 128) (q : Fin 128) :
    (iblk3 (F := Ideal) V c 1 t : Vec Ideal S128x128 .f32) (ix2 k q) = (V c main_v56 : S128x128.Idx → EReal) (ix2 k q) := by
  obtain ⟨-, -, e2, e3, -, -, -, -⟩ := idx_facts3 t
  unfold iblk3
  rw [View.read_apply]
  show V c main_v56 _ = V c main_v56 _
  congr 1
  funext a
  apply Fin.ext
  match a with
  | ⟨0, _⟩ => show win3_1.index t (0 : Fin 2) * 128 + 1 * k.val = k.val; omega
  | ⟨1, _⟩ => show win3_1.index t (1 : Fin 2) * 128 + 1 * q.val = q.val; omega

/-- Row `p` of the block of the row factors at point `t` is row `5000 t + p`. -/
theorem dblk3 (c : Dev nD) (t : Fin cfg3.N) (p : Fin 5000) (r : Fin 50000) (hr : r.val = 5000 * t.val + p.val) :
    (iblk3 (F := Ideal) V c 2 t : Vec Ideal S5000x1 .f32) (ix2 p (0 : Fin 1)) = (V c main_v57 : S50000x1.Idx → EReal) (ix2 r (0 : Fin 1)) := by
  obtain ⟨-, -, -, -, e4, e5, -, -⟩ := idx_facts3 t
  unfold iblk3
  rw [View.read_apply]
  show V c main_v57 _ = V c main_v57 _
  congr 1
  funext a
  apply Fin.ext
  match a with
  | ⟨0, _⟩ => show win3_2.index t (0 : Fin 2) * 5000 + 1 * p.val = r.val; omega
  | ⟨1, _⟩ => show win3_2.index t (1 : Fin 2) * 1 + 1 * 0 = 0; omega

/-- Row `p` of the output's block at point `t` is row `5000 t + p` of the output. -/
theorem oblk3 (t : Fin cfg3.N) (p : Fin 5000) (q : Fin 128) (r : Fin 50000) (hr : r.val = 5000 * t.val + p.val) :
    ((cfg3.win 3).blk t).view.emb (ix2 p q) = (ix2 r q : S50000x128.Idx) := by
  obtain ⟨-, -, -, -, -, -, e6, e7⟩ := idx_facts3 t
  funext a
  apply Fin.ext
  match a with
  | ⟨0, _⟩ => show win3_3.index t (0 : Fin 2) * 5000 + 1 * p.val = r.val; omega
  | ⟨1, _⟩ => show win3_3.index t (1 : Fin 2) * 128 + 1 * q.val = q.val; omega

/-- What the output array of the second scaled product ends holding. -/
abbrev G3 (c : Dev nD) : Cert.Gcn.Arr 50000 128 :=
  Cert.Gcn.scaleRows (Cert.Gcn.mmT (V c main_v53_0) (V c main_v56)) (Cert.Gcn.col1 (V c main_v57))

/-- What point `t` writes back is block `t` of that array. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hN : cfg3.N = 10 := N_3
  have ht : t.val < 10 := hN ▸ t.isLt
  obtain ⟨r, hr⟩ : ∃ r : Fin 50000, r.val = 5000 * t.val + p.val := ⟨⟨5000 * t.val + p.val, by have := p.isLt; omega⟩, rfl⟩
  show k3_pay1 (iblk3 V c 0 t) (iblk3 V c 1 t) (iblk3 V c 2 t) (ix2 p q) = G3 V c (((cfg3.win 3).blk t).view.emb (ix2 p q))
  refine (linScaled3_apply _ _ _ p q).trans ?_
  rw [oblk3 t p q r hr, dblk3 V c t p r hr]
  refine Eq.trans ?_ (scaleRows_mmT_apply (V c main_v53_0) (V c main_v56) (V c main_v57) r q).symm
  refine congrArg₂ (· * ·) (Finset.sum_congr rfl fun k _ => ?_) rfl
  rw [xblk3 V c t p k r hr, wblk3 V c t k q]

/-- An index of the output is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v58).slice (win3_3.rect t)).set ↔ _
  rw [View.set_slice_whole, Rect.mem_set_unit]
  exact Iff.rfl

/-- Every row of the output is in a block: row `r` in block `r / 5000`. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e6, e7⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array of the second scaled product: `(x · w)` with row `n` multiplied by the factor of row `n`. -/
theorem final3 (c : Dev nD) : (Gen.dat3 (F := Ideal) V c).arrAt 3 cfg3.N
    = Cert.Gcn.scaleRows (Cert.Gcn.mmT (V c main_v53_0) (V c main_v56)) (Cert.Gcn.col1 (V c main_v57)) :=
  (dat3 V c).arrAt_eq_of_cover 3 (G3 V c) (fun t _ => flushed3_eq V c t) cover3

end Region3

end Cert.KernelIdeal.Regions

end
-- ==== Proof.RegionsB.lean ====
/-
  Closed forms of three row-tiled stages of the network, as whole arrays.

  Each stage runs over ten blocks of 5000 rows. The weights and the bias, scale and shift rows are read whole at every
  block; the row-tiled arrays are read at rows `5000 t … 5000 t + 4999` at block `t`; every output block is written whole.
  So the array an output ends with is ONE function of the stage's input arrays, index by index: the output head
  (two matrix products, a bias row added after each), and the post-aggregation stage (rows scaled by the node factor,
  a matrix product, bias, scale, shift, clip at zero) together with its running entrywise maximum.

  The steps, per stage: the block's value at an index `(p, q)` as sums and products of the loaded blocks at explicit
  coordinates; each loaded block as the rows of its array; the block written at `t` is block `t` of the whole-array
  function; every row `r` lies in block `r / 5000`; hence the final array is that function.
-/
import proofs.«162505_j1623497638167_2_alg».proof.Proof.Gen.KernelIdeal.Frame
import proofs.«162505_j1623497638167_2_alg».proof.Proof.Spec
import proofs.«162505_j1623497638167_2_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

/-- A column broadcast along the rows: a `[a, 1]` array broadcast to `[a, b]` reads, at `(p, c)`, the operand's row `p`. -/
theorem broadcastTo_a1_ab_applyB {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem zeros2 : (![0, 0] : Fin 2 → Nat) = fun _ => 0 := funext fun a => by fin_cases a <;> rfl

/-! ## The output head (region 5) -/

/-- The output head's block at an index: two matrix products, a bias row added after each. -/
theorem pay5_apply (x0 : FVec Ideal S5000x128 .f32) (x1 : FVec Ideal S128x128 .f32) (x2 : FVec Ideal S1x128 .f32)
    (x3 : FVec Ideal S128x40 .f32) (x4 : FVec Ideal S1x40 .f32) (p : Fin 5000) (q : Fin 40) :
    k5_pay1 (F := Ideal) x0 x1 x2 x3 x4 (ix2 p q)
      = (∑ k : Fin 128, ((∑ l : Fin 128, x0 (ix2 p l) * x1 (ix2 l k)) + x2 (ix2 (0 : Fin 1) k)) * x3 (ix2 k q))
        + x4 (ix2 (0 : Fin 1) q) := by
  unfold k5_pay1
  simp only [shapeCast_self]
  refine congrArg₂ (· + ·) ?_ (broadcastTo_1b_ab_apply x4 _ p q)
  refine (MatmulSum.matmul_zero_apply dot_S5000x128_S128x40_S5000x40_1_0_0_1_n_n rfl rfl rfl rfl rfl rfl none _ x3 (ix2 p q)).trans ?_
  refine Finset.sum_congr rfl fun k _ => ?_
  refine congrArg (· * x3 (ix2 k q)) ?_
  refine congrArg₂ (· + ·) ?_ (broadcastTo_1b_ab_apply x2 _ p k)
  exact MatmulSum.matmul_zero_apply dot_S5000x128_S128x128_S5000x128_1_0_0_1_n_n rfl rfl rfl rfl rfl rfl none x0 x1 (ix2 p k)

/-- A block of rows of the head is the body's payload of that block of rows of the features and the whole weights. -/
theorem head_rows (A0 : Cert.Gcn.Arr 50000 128) (A1 : Cert.Gcn.Arr 128 128) (A2 : Cert.Gcn.Arr 1 128) (A3 : Cert.Gcn.Arr 128 40)
    (A4 : Cert.Gcn.Arr 1 40) (x0 : FVec Ideal S5000x128 .f32) (x1 : FVec Ideal S128x128 .f32) (x2 : FVec Ideal S1x128 .f32)
    (x3 : FVec Ideal S128x40 .f32) (x4 : FVec Ideal S1x40 .f32) (p : Fin 5000) (q : Fin 40) (r : Fin 50000)
    (h0 : ∀ l : Fin 128, x0 (ix2 p l) = A0 (ix2 r l)) (h1 : x1 = A1) (h2 : x2 = A2) (h3 : x3 = A3) (h4 : x4 = A4) :
    k5_pay1 (F := Ideal) x0 x1 x2 x3 x4 (ix2 p q)
      = Cert.Gcn.head A0 A1 (Cert.Gcn.row1 A2) A3 (Cert.Gcn.row1 A4) (ix2 r q) := by
  rw [pay5_apply]
  subst h1 h2 h3 h4
  simp only [h0]
  rfl

/-! ## The post-aggregation stage (region 2) -/

/-- The stage's block at an index: the rows scaled by the node factor, the matrix product, bias, scale, shift, clip. -/
theorem pay2_1_apply (x0 : FVec Ideal S5000x128 .f32) (x1 : FVec Ideal S5000x1 .f32) (x2 : FVec Ideal S128x128 .f32)
    (x3 x4 x5 : FVec Ideal S1x128 .f32) (p : Fin 5000) (q : Fin 128) :
    k2_pay1 (F := Ideal) x0 x1 x2 x3 x4 x5 (ix2 p q)
      = max (((∑ k : Fin 128, (x0 (ix2 p k) * x1 (ix2 p (0 : Fin 1))) * x2 (ix2 k q)) + x3 (ix2 (0 : Fin 1) q))
          * x4 (ix2 (0 : Fin 1) q) + x5 (ix2 (0 : Fin 1) q)) 0 := by
  unfold k2_pay1
  simp only [shapeCast_self]
  refine congrArg₂ max ?_ Ideal.ofBits_zero_f32
  refine congrArg₂ (· + ·) ?_ (broadcastTo_1b_ab_apply x5 _ p q)
  refine congrArg₂ (· * ·) ?_ (broadcastTo_1b_ab_apply x4 _ p q)
  refine congrArg₂ (· + ·) ?_ (broadcastTo_1b_ab_apply x3 _ p q)
  refine (MatmulSum.matmul_zero_apply dot_S5000x128_S128x128_S5000x128_1_0_0_1_n_n rfl rfl rfl rfl rfl rfl none _ x2 (ix2 p q)).trans ?_
  refine Finset.sum_congr rfl fun k _ => ?_
  refine congrArg (· * x2 (ix2 k q)) ?_
  exact congrArg (x0 (ix2 p k) * ·) (broadcastTo_a1_ab_applyB x1 _ p k)

/-- The running maximum's block at an index. -/
theorem pay2_2_apply (x0 : FVec Ideal S5000x128 .f32) (x1 : FVec Ideal S5000x1 .f32) (x2 : FVec Ideal S128x128 .f32)
    (x3 x4 x5 : FVec Ideal S1x128 .f32) (x6 : FVec Ideal S5000x128 .f32) (p : Fin 5000) (q : Fin 128) :
    k2_pay2 (F := Ideal) x0 x1 x2 x3 x4 x5 x6 (ix2 p q)
      = max (x6 (ix2 p q)) (k2_pay1 (F := Ideal) x0 x1 x2 x3 x4 x5 (ix2 p q)) := by
  unfold k2_pay2
  simp only [shapeCast_self]
  rfl

/-- A block of rows of the stage's result is the body's payload of that block of rows of the row-tiled arrays and the
    whole weights. -/
theorem postAgg_rows (A0 : Cert.Gcn.Arr 50000 128) (A1 : Cert.Gcn.Arr 50000 1) (A2 : Cert.Gcn.Arr 128 128)
    (A3 A4 A5 : Cert.Gcn.Arr 1 128) (x0 : FVec Ideal S5000x128 .f32) (x1 : FVec Ideal S5000x1 .f32)
    (x2 : FVec Ideal S128x128 .f32) (x3 x4 x5 : FVec Ideal S1x128 .f32) (p : Fin 5000) (q : Fin 128) (r : Fin 50000)
    (h0 : ∀ k : Fin 128, x0 (ix2 p k) = A0 (ix2 r k)) (h1 : x1 (ix2 p (0 : Fin 1)) = A1 (ix2 r (0 : Fin 1)))
    (h2 : x2 = A2) (h3 : x3 = A3) (h4 : x4 = A4) (h5 : x5 = A5) :
    k2_pay1 (F := Ideal) x0 x1 x2 x3 x4 x5 (ix2 p q)
      = Cert.Gcn.bnRelu (Cert.Gcn.mmT (Cert.Gcn.scaleRows A0 (Cert.Gcn.col1 A1)) A2) (Cert.Gcn.row1 A3) (Cert.Gcn.row1 A4)
          (Cert.Gcn.row1 A5) (ix2 r q) := by
  rw [pay2_1_apply]
  subst h2 h3 h4 h5
  simp only [h0, h1]
  rfl

/-- The same for the running maximum. -/
theorem postAggMax_rows (A0 : Cert.Gcn.Arr 50000 128) (A1 : Cert.Gcn.Arr 50000 1) (A2 : Cert.Gcn.Arr 128 128)
    (A3 A4 A5 : Cert.Gcn.Arr 1 128) (A6 : Cert.Gcn.Arr 50000 128) (x0 : FVec Ideal S5000x128 .f32) (x1 : FVec Ideal S5000x1 .f32)
    (x2 : FVec Ideal S128x128 .f32) (x3 x4 x5 : FVec Ideal S1x128 .f32) (x6 : FVec Ideal S5000x128 .f32)
    (p : Fin 5000) (q : Fin 128) (r : Fin 50000)
    (h0 : ∀ k : Fin 128, x0 (ix2 p k) = A0 (ix2 r k)) (h1 : x1 (ix2 p (0 : Fin 1)) = A1 (ix2 r (0 : Fin 1)))
    (h2 : x2 = A2) (h3 : x3 = A3) (h4 : x4 = A4) (h5 : x5 = A5) (h6 : x6 (ix2 p q) = A6 (ix2 r q)) :
    k2_pay2 (F := Ideal) x0 x1 x2 x3 x4 x5 x6 (ix2 p q)
      = Cert.Gcn.maxArr A6 (Cert.Gcn.bnRelu (Cert.Gcn.mmT (Cert.Gcn.scaleRows A0 (Cert.Gcn.col1 A1)) A2) (Cert.Gcn.row1 A3)
          (Cert.Gcn.row1 A4) (Cert.Gcn.row1 A5)) (ix2 r q) := by
  rw [pay2_2_apply, postAgg_rows A0 A1 A2 A3 A4 A5 x0 x1 x2 x3 x4 x5 p q r h0 h1 h2 h3 h4 h5, h6]
  rfl

variable (V : (c : Dev nD) → (b : Ref sig .tc) → Buf (Elt Ideal) ((c : Thread nD τ).loc b))

/-! ## Region 5: from the blocks to the array -/

/-- The printed index maps of region 5, decided over the grid: the row-tiled windows sit at block row `t`, the weights
    and biases at the origin. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem lt5 (t : Fin cfg5.N) : t.val < 10 := lt_of_lt_of_eq t.isLt N_5

/-- The feature window's block at point `t` is rows `5000 t …` of the feature array. -/
theorem iblk5_0_apply (c : Dev nD) (t : Fin cfg5.N) (p : Fin 5000) (l : Fin 128) (r : Fin 50000)
    (hr : r.val = t.val * 5000 + p.val) :
    (iblk5 V c 0 t : FVec Ideal S5000x128 .f32) (ix2 p l) = (V c main_v82_1 : S50000x128.Idx → EReal) (ix2 r l) := by
  obtain ⟨e0, e1, -⟩ := idx_facts5 t
  show V c main_v82_1 (((cfg5.win 0).blk t).view.emb (ix2 p l)) = V c main_v82_1 (ix2 r l)
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * l.val = l.val; rw [e1]; omega

/-- A whole-array window's block is the array. -/
theorem iblk5_1_eq (c : Dev nD) (t : Fin cfg5.N) :
    (iblk5 V c 1 t : FVec Ideal S128x128 .f32) = (V c main_v83 : S128x128.Idx → EReal) := by
  obtain ⟨-, -, e0, e1, -⟩ := idx_facts5 t
  funext y
  show V c main_v83 (((cfg5.win 1).blk t).view.emb y) = V c main_v83 y
  refine congrArg _ (funext fun a => Fin.ext ?_)
  match a with
  | ⟨0, _⟩ => show win5_1.index t (0 : Fin 2) * 128 + 1 * (y 0).val = (y 0).val; rw [e0]; omega
  | ⟨1, _⟩ => show win5_1.index t (1 : Fin 2) * 128 + 1 * (y 1).val = (y 1).val; rw [e1]; omega

theorem iblk5_2_eq (c : Dev nD) (t : Fin cfg5.N) :
    (iblk5 V c 2 t : FVec Ideal S1x128 .f32) = (V c main_v85 : S1x128.Idx → EReal) := by
  obtain ⟨-, -, -, -, e0, e1, -⟩ := idx_facts5 t
  funext y
  show V c main_v85 (((cfg5.win 2).blk t).view.emb y) = V c main_v85 y
  refine congrArg _ (funext fun a => Fin.ext ?_)
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

theorem iblk5_3_eq (c : Dev nD) (t : Fin cfg5.N) :
    (iblk5 V c 3 t : FVec Ideal S128x40 .f32) = (V c main_v84 : S128x40.Idx → EReal) := by
  obtain ⟨-, -, -, -, -, -, e0, e1, -⟩ := idx_facts5 t
  funext y
  show V c main_v84 (((cfg5.win 3).blk t).view.emb y) = V c main_v84 y
  refine congrArg _ (funext fun a => Fin.ext ?_)
  match a with
  | ⟨0, _⟩ => show win5_3.index t (0 : Fin 2) * 128 + 1 * (y 0).val = (y 0).val; rw [e0]; omega
  | ⟨1, _⟩ => show win5_3.index t (1 : Fin 2) * 40 + 1 * (y 1).val = (y 1).val; rw [e1]; omega

theorem iblk5_4_eq (c : Dev nD) (t : Fin cfg5.N) :
    (iblk5 V c 4 t : FVec Ideal S1x40 .f32) = (V c main_v86 : S1x40.Idx → EReal) := by
  obtain ⟨-, -, -, -, -, -, -, -, e0, e1, -⟩ := idx_facts5 t
  funext y
  show V c main_v86 (((cfg5.win 4).blk t).view.emb y) = V c main_v86 y
  refine congrArg _ (funext fun a => Fin.ext ?_)
  match a with
  | ⟨0, _⟩ => show win5_4.index t (0 : Fin 2) * 1 + 1 * (y 0).val = (y 0).val; rw [e0]; omega
  | ⟨1, _⟩ => show win5_4.index t (1 : Fin 2) * 40 + 1 * (y 1).val = (y 1).val; rw [e1]; omega

/-- What point `t` writes back is block `t` of the head of the arrays as the region finds them. -/
theorem flushed5_eq (c : Dev nD) (t : Fin cfg5.N) :
    (dat5 V c).flushed 5 t = ((cfg5.win 5).blk t).view.read (Elt Ideal)
      (Cert.Gcn.head (V c main_v82_1) (V c main_v83) (Cert.Gcn.row1 (V c main_v85)) (V c main_v84) (Cert.Gcn.row1 (V c main_v86))) := by
  show (cfg5.win 5).cut (grid5.coords t) ((dat5 V c).after 5 t) = _
  rw [after5_5]
  unfold out5_5
  rw [View.canon_unit_zero zeros2]
  simp only [View.ld_unit_zero (S := S5000x128) zeros2, View.ld_unit_zero (S := S128x128) zeros2,
    View.ld_unit_zero (S := S1x128) zeros2, View.ld_unit_zero (S := S128x40) zeros2, View.ld_unit_zero (S := S1x40) zeros2]
  obtain ⟨-, -, -, -, -, -, -, -, -, -, e0, e1⟩ := idx_facts5 t
  have ht := lt5 t
  funext j
  obtain ⟨p, q, rfl⟩ : ∃ (p : Fin 5000) (q : Fin 40), j = ix2 p q := ⟨j 0, j 1, eq_ix2 j⟩
  have hemb : ((cfg5.win 5).blk t).view.emb (ix2 p q) = ix2 (⟨t.val * 5000 + p.val, by omega⟩ : Fin 50000) q := by
    funext a; apply Fin.ext
    match a with
    | ⟨0, _⟩ => show win5_5.index t (0 : Fin 2) * 5000 + 1 * p.val = t.val * 5000 + p.val; rw [e0]; omega
    | ⟨1, _⟩ => show win5_5.index t (1 : Fin 2) * 40 + 1 * q.val = q.val; rw [e1]; omega
  show k5_pay1 (F := Ideal) (iblk5 V c 0 t) (iblk5 V c 1 t) (iblk5 V c 2 t) (iblk5 V c 3 t) (iblk5 V c 4 t) (ix2 p q)
    = Cert.Gcn.head (V c main_v82_1) (V c main_v83) (Cert.Gcn.row1 (V c main_v85)) (V c main_v84) (Cert.Gcn.row1 (V c main_v86))
      (((cfg5.win 5).blk t).view.emb (ix2 p q))
  rw [hemb]
  exact head_rows _ _ _ _ _ _ _ _ _ _ p q _ (fun l => iblk5_0_apply V c t p l _ rfl) (iblk5_1_eq V c t) (iblk5_2_eq V c t)
    (iblk5_3_eq V c t) (iblk5_4_eq V c t)

/-- An index of the output array is in point `t`'s block iff each coordinate is in the block's range on its axis. -/
theorem mem_blk5 (t : Fin cfg5.N) (i : S50000x40.Idx) :
    i ∈ ((cfg5.win 5).blk t).view.set ↔ ∀ a : Fin 2, win5_5.index t a * S5000x40.size a ≤ (i a).val
      ∧ (i a).val < win5_5.index t a * S5000x40.size a + S5000x40.size a := by
  show i ∈ ((View.whole main_v87).slice (win5_5.rect t)).set ↔ _
  rw [View.set_slice_whole, Rect.mem_set_unit]
  exact Iff.rfl

/-- Every row of the output is in the block of the point numbered by the row's quotient by the block height. -/
theorem cover5 (i : S50000x40.Idx) :
    ∃ t : Fin cfg5.N, (cfg5.win 5).flush t = true ∧ i ∈ ((cfg5.win 5).blk t).view.set := by
  have hi0 : (i 0).val < 50000 := (i 0).isLt
  have hi1 : (i 1).val < 40 := (i 1).isLt
  have hN : (i 0).val / 5000 < cfg5.N := lt_of_lt_of_eq (b := 10) (by omega) N_5.symm
  obtain ⟨-, -, -, -, -, -, -, -, -, -, e0, e1⟩ := idx_facts5 ⟨(i 0).val / 5000, hN⟩
  refine ⟨⟨(i 0).val / 5000, hN⟩, flush5_5 _, ?_⟩
  rw [mem_blk5]
  intro a
  match a with
  | ⟨0, _⟩ =>
    show win5_5.index ⟨(i 0).val / 5000, hN⟩ (0 : Fin 2) * 5000 ≤ (i 0).val
      ∧ (i 0).val < win5_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, hN⟩ (1 : Fin 2) * 40 ≤ (i 1).val
      ∧ (i 1).val < win5_5.index ⟨(i 0).val / 5000, hN⟩ (1 : Fin 2) * 40 + 40
    rw [e1]; omega

/-- The output array after region 5: the head of the concatenated features, whole. -/
theorem final5 (c : Dev nD) : (Gen.dat5 (F := Ideal) V c).arrAt 5 cfg5.N
    = Cert.Gcn.head (V c main_v82_1) (V c main_v83) (Cert.Gcn.row1 (V c main_v85)) (V c main_v84) (Cert.Gcn.row1 (V c main_v86)) :=
  (dat5 V c).arrAt_eq_of_cover 5 _ (fun t _ => flushed5_eq V c t) cover5

/-! ## Region 2: from the blocks to the arrays -/

/-- The printed index maps of region 2, decided over the grid: the row-tiled windows sit at block row `t`, the weights
    and the bias, scale and shift rows at the origin. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem lt2 (t : Fin cfg2.N) : t.val < 10 := lt_of_lt_of_eq t.isLt N_2

/-- The aggregate window's block at point `t` is rows `5000 t …` of the aggregate. -/
theorem iblk2_0_apply (c : Dev nD) (t : Fin cfg2.N) (p : Fin 5000) (l : Fin 128) (r : Fin 50000)
    (hr : r.val = t.val * 5000 + p.val) :
    (iblk2 V c 0 t : FVec Ideal S5000x128 .f32) (ix2 p l) = (V c main_v39 : S50000x128.Idx → EReal) (ix2 r l) := by
  obtain ⟨e0, e1, -⟩ := idx_facts2 t
  show V c main_v39 (((cfg2.win 0).blk t).view.emb (ix2 p l)) = V c main_v39 (ix2 r l)
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * l.val = l.val; rw [e1]; omega

/-- The node factor's block at point `t` is rows `5000 t …` of the factor column. -/
theorem iblk2_1_apply (c : Dev nD) (t : Fin cfg2.N) (p : Fin 5000) (r : Fin 50000)
    (hr : r.val = t.val * 5000 + p.val) :
    (iblk2 V c 1 t : FVec Ideal S5000x1 .f32) (ix2 p (0 : Fin 1)) = (V c main_v52 : S50000x1.Idx → EReal) (ix2 r (0 : Fin 1)) := by
  obtain ⟨-, -, e0, e1, -⟩ := idx_facts2 t
  show V c main_v52 (((cfg2.win 1).blk t).view.emb (ix2 p (0 : Fin 1))) = V c main_v52 (ix2 r (0 : Fin 1))
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 1 + 1 * 0 = 0; rw [e1]

theorem iblk2_2_eq (c : Dev nD) (t : Fin cfg2.N) :
    (iblk2 V c 2 t : FVec Ideal S128x128 .f32) = (V c main_v44 : S128x128.Idx → EReal) := by
  obtain ⟨-, -, -, -, e0, e1, -⟩ := idx_facts2 t
  funext y
  show V c main_v44 (((cfg2.win 2).blk t).view.emb y) = V c main_v44 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem iblk2_3_eq (c : Dev nD) (t : Fin cfg2.N) :
    (iblk2 V c 3 t : FVec Ideal S1x128 .f32) = (V c main_v50 : S1x128.Idx → EReal) := by
  obtain ⟨-, -, -, -, -, -, e0, e1, -⟩ := idx_facts2 t
  funext y
  show V c main_v50 (((cfg2.win 3).blk t).view.emb y) = V c main_v50 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem iblk2_4_eq (c : Dev nD) (t : Fin cfg2.N) :
    (iblk2 V c 4 t : FVec Ideal S1x128 .f32) = (V c main_v49 : S1x128.Idx → EReal) := by
  obtain ⟨-, -, -, -, -, -, -, -, e0, e1, -⟩ := idx_facts2 t
  funext y
  show V c main_v49 (((cfg2.win 4).blk t).view.emb y) = V c main_v49 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem iblk2_5_eq (c : Dev nD) (t : Fin cfg2.N) :
    (iblk2 V c 5 t : FVec Ideal S1x128 .f32) = (V c main_v51 : S1x128.Idx → EReal) := by
  obtain ⟨-, -, -, -, -, -, -, -, -, -, e0, e1, -⟩ := idx_facts2 t
  funext y
  show V c main_v51 (((cfg2.win 5).blk t).view.emb y) = V c main_v51 y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The running maximum's input block at point `t` is rows `5000 t …` of its array. -/
theorem iblk2_6_apply (c : Dev nD) (t : Fin cfg2.N) (p : Fin 5000) (l : Fin 128) (r : Fin 50000)
    (hr : r.val = t.val * 5000 + p.val) :
    (iblk2 V c 6 t : FVec Ideal S5000x128 .f32) (ix2 p l) = (V c main_v24 : S50000x128.Idx → EReal) (ix2 r l) := by
  obtain ⟨-, -, -, -, -, -, -, -, -, -, -, -, e0, e1, -⟩ := idx_facts2 t
  show V c main_v24 (((cfg2.win 6).blk t).view.emb (ix2 p l)) = V c main_v24 (ix2 r l)
  refine congrArg _ (funext fun a => Fin.ext ?_)
  match a with
  | ⟨0, _⟩ => show win2_6.index t (0 : Fin 2) * 5000 + 1 * p.val = r.val; rw [e0, hr]; omega
  | ⟨1, _⟩ => show win2_6.index t (1 : Fin 2) * 128 + 1 * l.val = l.val; rw [e1]; omega

/-- What point `t` writes back to output 7 is block `t` of the whole-array function. -/
theorem flushed2_7_eq (c : Dev nD) (t : Fin cfg2.N) :
    (dat2 V c).flushed 7 t = ((cfg2.win 7).blk t).view.read (Elt Ideal) (Cert.Gcn.bnRelu (Cert.Gcn.mmT (Cert.Gcn.scaleRows (V c main_v39) (Cert.Gcn.col1 (V c main_v52))) (V c main_v44)) (Cert.Gcn.row1 (V c main_v50)) (Cert.Gcn.row1 (V c main_v49)) (Cert.Gcn.row1 (V c main_v51))) := by
  show (cfg2.win 7).cut (grid2.coords t) ((dat2 V c).after 7 t) = _
  rw [after2_7]
  unfold out2_7
  rw [View.canon_unit_zero zeros2]
  simp only [View.ld_unit_zero (S := S5000x128) zeros2, View.ld_unit_zero (S := S5000x1) zeros2,
    View.ld_unit_zero (S := S128x128) zeros2, View.ld_unit_zero (S := S1x128) zeros2]
  obtain ⟨-, -, -, -, -, -, -, -, -, -, -, -, -, -, e0, e1, -⟩ := idx_facts2 t
  have ht := lt2 t
  funext j
  obtain ⟨p, q, rfl⟩ : ∃ (p : Fin 5000) (q : Fin 128), j = ix2 p q := ⟨j 0, j 1, eq_ix2 j⟩
  have hemb : ((cfg2.win 7).blk t).view.emb (ix2 p q) = ix2 (⟨t.val * 5000 + p.val, by omega⟩ : Fin 50000) q := by
    funext a; apply Fin.ext
    match a with
    | ⟨0, _⟩ => show win2_7.index t (0 : Fin 2) * 5000 + 1 * p.val = t.val * 5000 + p.val; rw [e0]; omega
    | ⟨1, _⟩ => show win2_7.index t (1 : Fin 2) * 128 + 1 * q.val = q.val; rw [e1]; omega
  show k2_pay1 (F := Ideal) (iblk2 V c 0 t) (iblk2 V c 1 t) (iblk2 V c 2 t) (iblk2 V c 3 t) (iblk2 V c 4 t) (iblk2 V c 5 t) (ix2 p q)
    = (Cert.Gcn.bnRelu (Cert.Gcn.mmT (Cert.Gcn.scaleRows (V c main_v39) (Cert.Gcn.col1 (V c main_v52))) (V c main_v44)) (Cert.Gcn.row1 (V c main_v50)) (Cert.Gcn.row1 (V c main_v49)) (Cert.Gcn.row1 (V c main_v51))) (((cfg2.win 7).blk t).view.emb (ix2 p q))
  rw [hemb]
  exact postAgg_rows _ _ _ _ _ _ _ _ _ _ _ _ p q _ (fun l => iblk2_0_apply V c t p l _ rfl)
    (iblk2_1_apply V c t p _ rfl) (iblk2_2_eq V c t) (iblk2_3_eq V c t) (iblk2_4_eq V c t) (iblk2_5_eq V c t)

/-- An index of output 7's array is in point `t`'s block iff each coordinate is in the block's range on its axis. -/
theorem mem_blk2_7 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v53_0).slice (win2_7.rect t)).set ↔ _
  rw [View.set_slice_whole, Rect.mem_set_unit]
  exact Iff.rfl

/-- Every row is in the block of the point numbered by the row's quotient by the block height. -/
theorem rowsCover2_7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : (i 0).val / 5000 < cfg2.N := lt_of_lt_of_eq (b := 10) (by omega) N_2.symm
  obtain ⟨-, -, -, -, -, -, -, -, -, -, -, -, -, -, e0, e1, -⟩ := idx_facts2 ⟨(i 0).val / 5000, hN⟩
  refine ⟨⟨(i 0).val / 5000, hN⟩, flush2_7 _, ?_⟩
  rw [mem_blk2_7]
  intro a
  match a with
  | ⟨0, _⟩ =>
    show win2_7.index ⟨(i 0).val / 5000, hN⟩ (0 : Fin 2) * 5000 ≤ (i 0).val
      ∧ (i 0).val < win2_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, hN⟩ (1 : Fin 2) * 128 ≤ (i 1).val
      ∧ (i 1).val < win2_7.index ⟨(i 0).val / 5000, hN⟩ (1 : Fin 2) * 128 + 128
    rw [e1]; omega

/-- The stage's result after region 2, whole. -/
theorem final2_7 (c : Dev nD) : (Gen.dat2 (F := Ideal) V c).arrAt 7 cfg2.N
    = Cert.Gcn.bnRelu (Cert.Gcn.mmT (Cert.Gcn.scaleRows (V c main_v39) (Cert.Gcn.col1 (V c main_v52))) (V c main_v44)) (Cert.Gcn.row1 (V c main_v50)) (Cert.Gcn.row1 (V c main_v49)) (Cert.Gcn.row1 (V c main_v51)) :=
  (dat2 V c).arrAt_eq_of_cover 7 _ (fun t _ => flushed2_7_eq V c t) rowsCover2_7

/-- What point `t` writes back to output 8 is block `t` of the whole-array function. -/
theorem flushed2_8_eq (c : Dev nD) (t : Fin cfg2.N) :
    (dat2 V c).flushed 8 t = ((cfg2.win 8).blk t).view.read (Elt Ideal) (Cert.Gcn.maxArr (V c main_v24) (Cert.Gcn.bnRelu (Cert.Gcn.mmT (Cert.Gcn.scaleRows (V c main_v39) (Cert.Gcn.col1 (V c main_v52))) (V c main_v44)) (Cert.Gcn.row1 (V c main_v50)) (Cert.Gcn.row1 (V c main_v49)) (Cert.Gcn.row1 (V c main_v51)))) := by
  show (cfg2.win 8).cut (grid2.coords t) ((dat2 V c).after 8 t) = _
  rw [after2_8]
  unfold out2_8
  rw [View.canon_unit_zero zeros2]
  simp only [View.ld_unit_zero (S := S5000x128) zeros2, View.ld_unit_zero (S := S5000x1) zeros2,
    View.ld_unit_zero (S := S128x128) zeros2, View.ld_unit_zero (S := S1x128) zeros2]
  obtain ⟨-, -, -, -, -, -, -, -, -, -, -, -, -, -, -, -, e0, e1⟩ := idx_facts2 t
  have ht := lt2 t
  funext j
  obtain ⟨p, q, rfl⟩ : ∃ (p : Fin 5000) (q : Fin 128), j = ix2 p q := ⟨j 0, j 1, eq_ix2 j⟩
  have hemb : ((cfg2.win 8).blk t).view.emb (ix2 p q) = ix2 (⟨t.val * 5000 + p.val, by omega⟩ : Fin 50000) q := by
    funext a; apply Fin.ext
    match a with
    | ⟨0, _⟩ => show win2_8.index t (0 : Fin 2) * 5000 + 1 * p.val = t.val * 5000 + p.val; rw [e0]; omega
    | ⟨1, _⟩ => show win2_8.index t (1 : Fin 2) * 128 + 1 * q.val = q.val; rw [e1]; omega
  show k2_pay2 (F := Ideal) (iblk2 V c 0 t) (iblk2 V c 1 t) (iblk2 V c 2 t) (iblk2 V c 3 t) (iblk2 V c 4 t) (iblk2 V c 5 t) (iblk2 V c 6 t) (ix2 p q)
    = (Cert.Gcn.maxArr (V c main_v24) (Cert.Gcn.bnRelu (Cert.Gcn.mmT (Cert.Gcn.scaleRows (V c main_v39) (Cert.Gcn.col1 (V c main_v52))) (V c main_v44)) (Cert.Gcn.row1 (V c main_v50)) (Cert.Gcn.row1 (V c main_v49)) (Cert.Gcn.row1 (V c main_v51)))) (((cfg2.win 8).blk t).view.emb (ix2 p q))
  rw [hemb]
  exact postAggMax_rows _ _ _ _ _ _ _ _ _ _ _ _ _ _ p q _ (fun l => iblk2_0_apply V c t p l _ rfl)
    (iblk2_1_apply V c t p _ rfl) (iblk2_2_eq V c t) (iblk2_3_eq V c t) (iblk2_4_eq V c t) (iblk2_5_eq V c t)
    (iblk2_6_apply V c t p q _ rfl)

/-- An index of output 8's array is in point `t`'s block iff each coordinate is in the block's range on its axis. -/
theorem mem_blk2_8 (t : Fin cfg2.N) (i : S50000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v53_1).slice (win2_8.rect t)).set ↔ _
  rw [View.set_slice_whole, Rect.mem_set_unit]
  exact Iff.rfl

/-- Every row is in the block of the point numbered by the row's quotient by the block height. -/
theorem rowsCover2_8 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : (i 0).val / 5000 < cfg2.N := lt_of_lt_of_eq (b := 10) (by omega) N_2.symm
  obtain ⟨-, -, -, -, -, -, -, -, -, -, -, -, -, -, -, -, e0, e1⟩ := idx_facts2 ⟨(i 0).val / 5000, hN⟩
  refine ⟨⟨(i 0).val / 5000, hN⟩, flush2_8 _, ?_⟩
  rw [mem_blk2_8]
  intro a
  match a with
  | ⟨0, _⟩ =>
    show win2_8.index ⟨(i 0).val / 5000, hN⟩ (0 : Fin 2) * 5000 ≤ (i 0).val
      ∧ (i 0).val < win2_8.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_8.index ⟨(i 0).val / 5000, hN⟩ (1 : Fin 2) * 128 ≤ (i 1).val
      ∧ (i 1).val < win2_8.index ⟨(i 0).val / 5000, hN⟩ (1 : Fin 2) * 128 + 128
    rw [e1]; omega

/-- The running maximum after region 2, whole. -/
theorem final2_8 (c : Dev nD) : (Gen.dat2 (F := Ideal) V c).arrAt 8 cfg2.N
    = Cert.Gcn.maxArr (V c main_v24) (Cert.Gcn.bnRelu (Cert.Gcn.mmT (Cert.Gcn.scaleRows (V c main_v39) (Cert.Gcn.col1 (V c main_v52))) (V c main_v44)) (Cert.Gcn.row1 (V c main_v50)) (Cert.Gcn.row1 (V c main_v49)) (Cert.Gcn.row1 (V c main_v51))) :=
  (dat2 V c).arrAt_eq_of_cover 8 _ (fun t _ => flushed2_8_eq V c t) rowsCover2_8

end Cert.KernelIdeal.Regions

end
-- ==== Proof.RegionsD.lean ====
/-
  The second layer's post-aggregation region as whole-array functions, at the ideal values.

  The region walks a one-dimensional grid of ten points. Point `t` stages rows `5000 t … 5000 t + 4999` of the
  aggregated features, of the per-row factors and of the running maximum, and the whole of the weight and of the three
  row vectors; it computes two blocks of 5000 rows and writes each back to rows `5000 t … 5000 t + 4999` of its output.
  Every output row lies in exactly one block (row `r` in block `r / 5000`) and the value computed for a row depends
  only on that row of the row-tiled inputs, so each output array ends holding one function of the input arrays:

  * the layer's activation: `max ((((agg * d) · w) + b) * scale + shift, 0)`, with `d` one factor per row;
  * the running maximum: the entrywise maximum of the previous maximum and that activation.
-/
import proofs.«162505_j1623497638167_2_alg».proof.Proof.Gen.KernelIdeal.Frame
import proofs.«162505_j1623497638167_2_alg».proof.Proof.Spec
import proofs.«162505_j1623497638167_2_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access. -/
theorem hz4 : (![0, 0] : Fin 2 → Nat) = fun _ => 0 := funext fun a => by fin_cases a <;> rfl

/-! ## Layout operations at an index -/

/-- An `[a, 1]` array broadcast to `[a, b]` reads, at `(p, c)`, the operand's row `p`. -/
theorem broadcastTo_a1_ab_apply4 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- One block of the activation, at row `p` and column `q`: the row of `agg` scaled by the row's factor, times the
    column of `w`, plus the bias, times the scale, plus the shift, clipped at zero. -/
theorem postAgg4_apply (agg : Vec Ideal S5000x128 .f32) (dq : Vec Ideal S5000x1 .f32) (w : Vec Ideal S128x128 .f32) (b sc sh : Vec Ideal S1x128 .f32)
    (p : Fin 5000) (q : Fin 128) :
    k4_pay1 agg dq w b sc sh (ix2 p q)
      = max (((∑ k : Fin 128, (agg (ix2 p k) * dq (ix2 p (0 : Fin 1))) * w (ix2 k q)) + b (ix2 (0 : Fin 1) q)) * sc (ix2 (0 : Fin 1) q) + sh (ix2 (0 : Fin 1) q)) 0 := by
  unfold k4_pay1
  simp only [shapeCast_self]
  rw [maximumf_apply, addf_apply, mulf_apply, addf_apply, broadcast_apply]
  refine congrArg₂ max (congrArg₂ (· + ·) (congrArg₂ (· * ·) (congrArg₂ (· + ·) ?_ ?_) ?_) ?_) ?_
  · refine (MatmulSum.matmul_zero_apply dot_S5000x128_S128x128_S5000x128_1_0_0_1_n_n rfl rfl rfl rfl rfl rfl none _ w (ix2 p q)).trans ?_
    refine Finset.sum_congr rfl fun k _ => congrArg₂ (· * ·) ?_ rfl
    exact congrArg₂ (· * ·) rfl (broadcastTo_a1_ab_apply4 dq broadcasts_S5000x1_S5000x128 p k)
  · exact broadcastTo_1b_ab_apply b broadcasts_S1x128_S5000x128 p q
  · exact broadcastTo_1b_ab_apply sc broadcasts_S1x128_S5000x128 p q
  · exact broadcastTo_1b_ab_apply sh broadcasts_S1x128_S5000x128 p q
  · exact Ideal.ofBits_zero_f32

/-- One block of the running maximum, at an index: the larger of the previous maximum and the activation. -/
theorem postAggMax4_apply (agg : Vec Ideal S5000x128 .f32) (dq : Vec Ideal S5000x1 .f32) (w : Vec Ideal S128x128 .f32) (b sc sh : Vec Ideal S1x128 .f32)
    (jk : Vec Ideal S5000x128 .f32) (j : S5000x128.Idx) :
    k4_pay2 agg dq w b sc sh jk j = max (jk j) (k4_pay1 agg dq w b sc sh j) := by
  unfold k4_pay2
  simp only [shapeCast_self]
  rw [maximumf_apply]

/-- The activation as a function of the arrays, at row `r` and column `q`. -/
theorem layer4_apply (A : Cert.Gcn.Arr 50000 128) (D : Cert.Gcn.Arr 50000 1) (W : Cert.Gcn.Arr 128 128) (B S T : Cert.Gcn.Arr 1 128) (r : Fin 50000) (q : Fin 128) :
    Cert.Gcn.bnRelu (Cert.Gcn.mmT (Cert.Gcn.scaleRows A (Cert.Gcn.col1 D)) W) (Cert.Gcn.row1 B) (Cert.Gcn.row1 S) (Cert.Gcn.row1 T) (ix2 r q)
      = max (((∑ k : Fin 128, (A (ix2 r k) * D (ix2 r (0 : Fin 1))) * W (ix2 k q)) + B (ix2 (0 : Fin 1) q)) * S (ix2 (0 : Fin 1) q) + T (ix2 (0 : Fin 1) q)) 0 := rfl

/-! ## From blocks to the arrays -/

section Region4

variable (V : (c : Dev nD) → (b : Ref sig .tc) → Buf (Elt Ideal) ((c : Thread nD τ).loc b))

/-- The printed index maps, decided over the grid: the row-tiled windows are at block `(t, 0)`, the weight and
    row-vector windows at block `(0, 0)`. -/
theorem idx_facts4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = t.val
    ∧ win4_6.index t (1 : Fin 2) = 0
    ∧ win4_7.index t (0 : Fin 2) = t.val
    ∧ win4_7.index t (1 : Fin 2) = 0
    ∧ win4_8.index t (0 : Fin 2) = t.val
    ∧ win4_8.index t (1 : Fin 2) = 0 :=
  (by decide +kernel : ∀ t : Fin grid4.N, _)

/-- Row `p` of the block of the aggregated features at point `t` is row `5000 t + p` of the array. -/
theorem xblk4 (c : Dev nD) (t : Fin cfg4.N) (p : Fin 5000) (k : Fin 128) (r : Fin 50000) (hr : r.val = 5000 * t.val + p.val) :
    (iblk4 (F := Ideal) V c 0 t : Vec Ideal S5000x128 .f32) (ix2 p k) = (V c main_v68 : S50000x128.Idx → EReal) (ix2 r k) := by
  obtain ⟨e0, e1, -, -, -, -, -, -, -, -, -, -, -, -, -, -, -, -⟩ := idx_facts4 t
  unfold iblk4
  rw [View.read_apply]
  show V c main_v68 _ = V c main_v68 _
  congr 1
  funext a
  apply Fin.ext
  match a with
  | ⟨0, _⟩ => show win4_0.index t (0 : Fin 2) * 5000 + 1 * p.val = r.val; omega
  | ⟨1, _⟩ => show win4_0.index t (1 : Fin 2) * 128 + 1 * k.val = k.val; omega

/-- Row `p` of the block of the row factors at point `t` is row `5000 t + p`. -/
theorem dblk4 (c : Dev nD) (t : Fin cfg4.N) (p : Fin 5000) (r : Fin 50000) (hr : r.val = 5000 * t.val + p.val) :
    (iblk4 (F := Ideal) V c 1 t : Vec Ideal S5000x1 .f32) (ix2 p (0 : Fin 1)) = (V c main_v81 : S50000x1.Idx → EReal) (ix2 r (0 : Fin 1)) := by
  obtain ⟨-, -, e0, e1, -, -, -, -, -, -, -, -, -, -, -, -, -, -⟩ := idx_facts4 t
  unfold iblk4
  rw [View.read_apply]
  show V c main_v81 _ = V c main_v81 _
  congr 1
  funext a
  apply Fin.ext
  match a with
  | ⟨0, _⟩ => show win4_1.index t (0 : Fin 2) * 5000 + 1 * p.val = r.val; omega
  | ⟨1, _⟩ => show win4_1.index t (1 : Fin 2) * 1 + 1 * 0 = 0; omega

/-- The block of the weight at any point is the weight. -/
theorem wblk4 (c : Dev nD) (t : Fin cfg4.N) (k : Fin 128) (q : Fin 128) :
    (iblk4 (F := Ideal) V c 2 t : Vec Ideal S128x128 .f32) (ix2 k q) = (V c main_v73 : S128x128.Idx → EReal) (ix2 k q) := by
  obtain ⟨-, -, -, -, e0, e1, -, -, -, -, -, -, -, -, -, -, -, -⟩ := idx_facts4 t
  unfold iblk4
  rw [View.read_apply]
  show V c main_v73 _ = V c main_v73 _
  congr 1
  funext a
  apply Fin.ext
  match a with
  | ⟨0, _⟩ => show win4_2.index t (0 : Fin 2) * 128 + 1 * k.val = k.val; omega
  | ⟨1, _⟩ => show win4_2.index t (1 : Fin 2) * 128 + 1 * q.val = q.val; omega

/-- The block of the bias row at any point is the bias row. -/
theorem bblk4 (c : Dev nD) (t : Fin cfg4.N) (q : Fin 128) :
    (iblk4 (F := Ideal) V c 3 t : Vec Ideal S1x128 .f32) (ix2 (0 : Fin 1) q) = (V c main_v79 : S1x128.Idx → EReal) (ix2 (0 : Fin 1) q) := by
  obtain ⟨-, -, -, -, -, -, e0, e1, -, -, -, -, -, -, -, -, -, -⟩ := idx_facts4 t
  unfold iblk4
  rw [View.read_apply]
  show V c main_v79 _ = V c main_v79 _
  congr 1
  funext a
  apply Fin.ext
  match a with
  | ⟨0, _⟩ => show win4_3.index t (0 : Fin 2) * 1 + 1 * 0 = 0; omega
  | ⟨1, _⟩ => show win4_3.index t (1 : Fin 2) * 128 + 1 * q.val = q.val; omega

/-- The block of the scale row at any point is the scale row. -/
theorem sblk4 (c : Dev nD) (t : Fin cfg4.N) (q : Fin 128) :
    (iblk4 (F := Ideal) V c 4 t : Vec Ideal S1x128 .f32) (ix2 (0 : Fin 1) q) = (V c main_v78 : S1x128.Idx → EReal) (ix2 (0 : Fin 1) q) := by
  obtain ⟨-, -, -, -, -, -, -, -, e0, e1, -, -, -, -, -, -, -, -⟩ := idx_facts4 t
  unfold iblk4
  rw [View.read_apply]
  show V c main_v78 _ = V c main_v78 _
  congr 1
  funext a
  apply Fin.ext
  match a with
  | ⟨0, _⟩ => show win4_4.index t (0 : Fin 2) * 1 + 1 * 0 = 0; omega
  | ⟨1, _⟩ => show win4_4.index t (1 : Fin 2) * 128 + 1 * q.val = q.val; omega

/-- The block of the shift row at any point is the shift row. -/
theorem tblk4 (c : Dev nD) (t : Fin cfg4.N) (q : Fin 128) :
    (iblk4 (F := Ideal) V c 5 t : Vec Ideal S1x128 .f32) (ix2 (0 : Fin 1) q) = (V c main_v80 : S1x128.Idx → EReal) (ix2 (0 : Fin 1) q) := by
  obtain ⟨-, -, -, -, -, -, -, -, -, -, e0, e1, -, -, -, -, -, -⟩ := idx_facts4 t
  unfold iblk4
  rw [View.read_apply]
  show V c main_v80 _ = V c main_v80 _
  congr 1
  funext a
  apply Fin.ext
  match a with
  | ⟨0, _⟩ => show win4_5.index t (0 : Fin 2) * 1 + 1 * 0 = 0; omega
  | ⟨1, _⟩ => show win4_5.index t (1 : Fin 2) * 128 + 1 * q.val = q.val; omega

/-- Row `p` of the block of the previous maximum at point `t` is row `5000 t + p` of the array. -/
theorem jblk4 (c : Dev nD) (t : Fin cfg4.N) (p : Fin 5000) (k : Fin 128) (r : Fin 50000) (hr : r.val = 5000 * t.val + p.val) :
    (iblk4 (F := Ideal) V c 6 t : Vec Ideal S5000x128 .f32) (ix2 p k) = (V c main_v53_1 : S50000x128.Idx → EReal) (ix2 r k) := by
  obtain ⟨-, -, -, -, -, -, -, -, -, -, -, -, e0, e1, -, -, -, -⟩ := idx_facts4 t
  unfold iblk4
  rw [View.read_apply]
  show V c main_v53_1 _ = V c main_v53_1 _
  congr 1
  funext a
  apply Fin.ext
  match a with
  | ⟨0, _⟩ => show win4_6.index t (0 : Fin 2) * 5000 + 1 * p.val = r.val; omega
  | ⟨1, _⟩ => show win4_6.index t (1 : Fin 2) * 128 + 1 * k.val = k.val; omega

/-- Row `p` of output window 7's block at point `t` is row `5000 t + p` of its array. -/
theorem oblk4_7 (t : Fin cfg4.N) (p : Fin 5000) (q : Fin 128) (r : Fin 50000) (hr : r.val = 5000 * t.val + p.val) :
    ((cfg4.win 7).blk t).view.emb (ix2 p q) = (ix2 r q : S50000x128.Idx) := by
  obtain ⟨-, -, -, -, -, -, -, -, -, -, -, -, -, -, e0, e1, -, -⟩ := idx_facts4 t
  funext a
  apply Fin.ext
  match a with
  | ⟨0, _⟩ => show win4_7.index t (0 : Fin 2) * 5000 + 1 * p.val = r.val; omega
  | ⟨1, _⟩ => show win4_7.index t (1 : Fin 2) * 128 + 1 * q.val = q.val; omega

/-- An index of output window 7's array is in point `t`'s block iff each coordinate is in the block's range on its axis. -/
theorem mem_blk4_7 (t : Fin cfg4.N) (i : S50000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v82_0).slice (win4_7.rect t)).set ↔ _
  rw [View.set_slice_whole, Rect.mem_set_unit]
  exact Iff.rfl

/-- Every row of output window 7's array is in a block: row `r` in block `r / 5000`. -/
theorem covered4_7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, -, -, e0, e1, -, -⟩ := idx_facts4 t
  refine ⟨t, flush4_7 t, ?_⟩
  rw [mem_blk4_7]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega

/-- Row `p` of output window 8's block at point `t` is row `5000 t + p` of its array. -/
theorem oblk4_8 (t : Fin cfg4.N) (p : Fin 5000) (q : Fin 128) (r : Fin 50000) (hr : r.val = 5000 * t.val + p.val) :
    ((cfg4.win 8).blk t).view.emb (ix2 p q) = (ix2 r q : S50000x128.Idx) := by
  obtain ⟨-, -, -, -, -, -, -, -, -, -, -, -, -, -, -, -, e0, e1⟩ := idx_facts4 t
  funext a
  apply Fin.ext
  match a with
  | ⟨0, _⟩ => show win4_8.index t (0 : Fin 2) * 5000 + 1 * p.val = r.val; omega
  | ⟨1, _⟩ => show win4_8.index t (1 : Fin 2) * 128 + 1 * q.val = q.val; omega

/-- An index of output window 8's array is in point `t`'s block iff each coordinate is in the block's range on its axis. -/
theorem mem_blk4_8 (t : Fin cfg4.N) (i : S50000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole main_v82_1).slice (win4_8.rect t)).set ↔ _
  rw [View.set_slice_whole, Rect.mem_set_unit]
  exact Iff.rfl

/-- Every row of output window 8's array is in a block: row `r` in block `r / 5000`. -/
theorem covered4_8 (i : S50000x128.Idx) : ∃ t : Fin cfg4.N, (cfg4.win 8).flush t = true ∧ i ∈ ((cfg4.win 8).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, -, -, -, -, e0, e1⟩ := idx_facts4 t
  refine ⟨t, flush4_8 t, ?_⟩
  rw [mem_blk4_8]
  intro a
  match a with
  | ⟨0, _⟩ => show win4_8.index t (0 : Fin 2) * 5000 ≤ (i 0).val ∧ (i 0).val < win4_8.index t (0 : Fin 2) * 5000 + 5000; omega
  | ⟨1, _⟩ => show win4_8.index t (1 : Fin 2) * 128 ≤ (i 1).val ∧ (i 1).val < win4_8.index t (1 : Fin 2) * 128 + 128; omega

/-- The layer's activation as one array. -/
abbrev H4 (c : Dev nD) : Cert.Gcn.Arr 50000 128 :=
  Cert.Gcn.bnRelu (Cert.Gcn.mmT (Cert.Gcn.scaleRows (V c main_v68) (Cert.Gcn.col1 (V c main_v81))) (V c main_v73)) (Cert.Gcn.row1 (V c main_v79)) (Cert.Gcn.row1 (V c main_v78)) (Cert.Gcn.row1 (V c main_v80))

/-- The running maximum as one array. -/
abbrev J4 (c : Dev nD) : Cert.Gcn.Arr 50000 128 := Cert.Gcn.maxArr (V c main_v53_1) (H4 V c)

/-- At point `t`, row `p` of the activation's block is row `5000 t + p` of the activation. -/
theorem pay4_eq (c : Dev nD) (t : Fin cfg4.N) (p : Fin 5000) (q : Fin 128) (r : Fin 50000) (hr : r.val = 5000 * t.val + p.val) :
    k4_pay1 (iblk4 (F := Ideal) V c 0 t) (iblk4 V c 1 t) (iblk4 V c 2 t) (iblk4 V c 3 t) (iblk4 V c 4 t) (iblk4 V c 5 t) (ix2 p q) = H4 V c (ix2 r q) := by
  refine (postAgg4_apply _ _ _ _ _ _ p q).trans ?_
  rw [dblk4 V c t p r hr, bblk4 V c t q, sblk4 V c t q, tblk4 V c t q]
  refine Eq.trans ?_ (layer4_apply (V c main_v68) (V c main_v81) (V c main_v73) (V c main_v79) (V c main_v78) (V c main_v80) r q).symm
  refine congrArg₂ max (congrArg₂ (· + ·) (congrArg₂ (· * ·) (congrArg₂ (· + ·) (Finset.sum_congr rfl fun k _ => ?_) rfl) rfl) rfl) rfl
  rw [xblk4 V c t p k r hr, wblk4 V c t k q]

/-- What point `t` writes back to the activation's array is block `t` of the activation. -/
theorem flushed4_7_eq (c : Dev nD) (t : Fin cfg4.N) :
    (dat4 (F := Ideal) V c).flushed 7 t = ((cfg4.win 7).blk t).view.read (Elt Ideal) (H4 V c) := by
  show (cfg4.win 7).cut (grid4.coords t) ((dat4 V c).after 7 t) = _
  rw [after4_7]
  unfold out4_7
  rw [View.canon_unit_zero hz4]
  simp only [View.ld_unit_zero (S := S5000x128) hz4, View.ld_unit_zero (S := S128x128) hz4, View.ld_unit_zero (S := S1x128) hz4, View.ld_unit_zero (S := S5000x1) hz4]
  funext j
  obtain ⟨p, q, rfl⟩ : ∃ (p : Fin 5000) (q : Fin 128), j = ix2 p q := ⟨j 0, j 1, eq_ix2 j⟩
  have hN : cfg4.N = 10 := N_4
  have ht : t.val < 10 := hN ▸ t.isLt
  obtain ⟨r, hr⟩ : ∃ r : Fin 50000, r.val = 5000 * t.val + p.val := ⟨⟨5000 * t.val + p.val, by have := p.isLt; omega⟩, rfl⟩
  show k4_pay1 (iblk4 V c 0 t) (iblk4 V c 1 t) (iblk4 V c 2 t) (iblk4 V c 3 t) (iblk4 V c 4 t) (iblk4 V c 5 t) (ix2 p q) = H4 V c (((cfg4.win 7).blk t).view.emb (ix2 p q))
  rw [oblk4_7 t p q r hr]
  exact pay4_eq V c t p q r hr

/-- What point `t` writes back to the running maximum's array is block `t` of the running maximum. -/
theorem flushed4_8_eq (c : Dev nD) (t : Fin cfg4.N) :
    (dat4 (F := Ideal) V c).flushed 8 t = ((cfg4.win 8).blk t).view.read (Elt Ideal) (J4 V c) := by
  show (cfg4.win 8).cut (grid4.coords t) ((dat4 V c).after 8 t) = _
  rw [after4_8]
  unfold out4_8
  rw [View.canon_unit_zero hz4]
  simp only [View.ld_unit_zero (S := S5000x128) hz4, View.ld_unit_zero (S := S128x128) hz4, View.ld_unit_zero (S := S1x128) hz4, View.ld_unit_zero (S := S5000x1) hz4]
  funext j
  obtain ⟨p, q, rfl⟩ : ∃ (p : Fin 5000) (q : Fin 128), j = ix2 p q := ⟨j 0, j 1, eq_ix2 j⟩
  have hN : cfg4.N = 10 := N_4
  have ht : t.val < 10 := hN ▸ t.isLt
  obtain ⟨r, hr⟩ : ∃ r : Fin 50000, r.val = 5000 * t.val + p.val := ⟨⟨5000 * t.val + p.val, by have := p.isLt; omega⟩, rfl⟩
  show k4_pay2 (iblk4 V c 0 t) (iblk4 V c 1 t) (iblk4 V c 2 t) (iblk4 V c 3 t) (iblk4 V c 4 t) (iblk4 V c 5 t) (iblk4 V c 6 t) (ix2 p q) = J4 V c (((cfg4.win 8).blk t).view.emb (ix2 p q))
  rw [oblk4_8 t p q r hr]
  refine (postAggMax4_apply _ _ _ _ _ _ _ (ix2 p q)).trans ?_
  refine congrArg₂ max ?_ ?_
  · exact jblk4 V c t p q r hr
  · exact pay4_eq V c t p q r hr

/-- The activation's array: `max ((((agg * d) · w) + b) * scale + shift, 0)`. -/
theorem final4_7 (c : Dev nD) : (Gen.dat4 (F := Ideal) V c).arrAt 7 cfg4.N
    = Cert.Gcn.bnRelu (Cert.Gcn.mmT (Cert.Gcn.scaleRows (V c main_v68) (Cert.Gcn.col1 (V c main_v81))) (V c main_v73)) (Cert.Gcn.row1 (V c main_v79)) (Cert.Gcn.row1 (V c main_v78)) (Cert.Gcn.row1 (V c main_v80)) :=
  (dat4 V c).arrAt_eq_of_cover 7 (H4 V c) (fun t _ => flushed4_7_eq V c t) covered4_7

/-- The running maximum's array: the entrywise maximum of the previous maximum and the activation. -/
theorem final4_8 (c : Dev nD) : (Gen.dat4 (F := Ideal) V c).arrAt 8 cfg4.N
    = Cert.Gcn.maxArr (V c main_v53_1) (Cert.Gcn.bnRelu (Cert.Gcn.mmT (Cert.Gcn.scaleRows (V c main_v68) (Cert.Gcn.col1 (V c main_v81))) (V c main_v73)) (Cert.Gcn.row1 (V c main_v79)) (Cert.Gcn.row1 (V c main_v78)) (Cert.Gcn.row1 (V c main_v80))) :=
  (dat4 V c).arrAt_eq_of_cover 8 (J4 V c) (fun t _ => flushed4_8_eq V c t) covered4_8

end Region4

end Cert.KernelIdeal.Regions

end
-- ==== Proof.KStages.lean ====
/-
  The idealized kernel program's buffers at its segment boundaries, as the layers of the network.

  Region 0 leaves the first hidden layer `h0`. Region 1 leaves `h0` times the first convolution matrix with row `n`
  scaled by the node factor; the host gathers its rows along the edges' sources and sums them over the edges landing
  on each node; region 2 scales row `n` of that sum by the node factor again, applies the layer's affine map and
  clipping, giving `h1`, and keeps the running maximum `max h0 h1`. Regions 3 and 4 repeat this from `h1`, giving `h2`
  and `max (max h0 h1) h2`; region 5 applies the two affine maps of the output head.
-/
import proofs.«162505_j1623497638167_2_alg».proof.Proof.KHost
import proofs.«162505_j1623497638167_2_alg».proof.Proof.KRun
import proofs.«162505_j1623497638167_2_alg».proof.Proof.KOps
import proofs.«162505_j1623497638167_2_alg».proof.Proof.RegionsA
import proofs.«162505_j1623497638167_2_alg».proof.Proof.RegionsB
import proofs.«162505_j1623497638167_2_alg».proof.Proof.RegionsD
import proofs.«162505_j1623497638167_2_alg».proof.Proof.Spec

set_option maxRecDepth 16384

noncomputable section

namespace Cert.KernelIdeal.KValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

open Cert.KernelIdeal.Regions Cert.KernelIdeal.KOps

/-! Equal arguments give equal values, for functions of three to seven arguments. -/
theorem congr3 {α β γ δ : Sort*} (f : α → β → γ → δ) {a a' : α} {b b' : β} {c c' : γ} (ha : a = a') (hb : b = b') (hc : c = c') :
    f a b c = f a' b' c' := by subst ha hb hc; rfl
theorem congr5 {α β γ δ ε ζ : Sort*} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl
theorem congr6 {α β γ δ ε ζ η : Sort*} (f : α → β → γ → δ → ε → ζ → η) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha hb hc hd he hg; rfl
theorem congr7 {α β γ δ ε ζ η θ : Sort*} (f : α → β → γ → δ → ε → ζ → η → θ) {a a' : α} {b b' : β} {c c' : γ} {d d' : δ} {e e' : ε} {g g' : ζ} {k k' : η}
    (ha : a = a') (hb : b = b') (hc : c = c') (hd : d = d') (he : e = e') (hg : g = g') (hk : k = k') :
    f a b c d e g k = f a' b' c' d' e' g' k' := by
  subst ha hb hc hd he hg hk; rfl

/-- The first hidden layer. -/
abbrev h0 (c : Dev nD) : Cert.Gcn.Arr 50000 128 := Cert.Gcn.bnRelu (Cert.Gcn.mmT (m ((c : Thread nD τ).loc main_arg0)) (Cert.ReferenceIdeal.Read.val_main_v27 (F := Ideal) (m ((c : Thread nD τ).loc main_arg2)))) (m ((c : Thread nD τ).loc main_arg3)) (Cert.ReferenceIdeal.Read.val_main_v39 (F := Ideal) (m ((c : Thread nD τ).loc main_arg7))) (Cert.ReferenceIdeal.Read.val_main_v35 (F := Ideal) (m ((c : Thread nD τ).loc main_arg8)))
/-- The second hidden layer. -/
abbrev h1 (c : Dev nD) : Cert.Gcn.Arr 50000 128 := Cert.Gcn.layerK (by norm_num : 0 < 50000) (h0 m c) (Cert.ReferenceIdeal.Read.val_main_v49 (F := Ideal) (m ((c : Thread nD τ).loc main_arg4))) (Cert.ReferenceIdeal.Read.val_main_v64 (F := Ideal) (m ((c : Thread nD τ).loc main_arg5))) (m ((c : Thread nD τ).loc main_arg6)) (Cert.ReferenceIdeal.Read.val_main_v76 (F := Ideal) (m ((c : Thread nD τ).loc main_arg7))) (Cert.ReferenceIdeal.Read.val_main_v72 (F := Ideal) (m ((c : Thread nD τ).loc main_arg8))) (Cert.ReferenceIdeal.Read.val_main_v11 (F := Ideal) (m ((c : Thread nD τ).loc main_arg1))) (Cert.ReferenceIdeal.Read.val_main_v17 (F := Ideal) (m ((c : Thread nD τ).loc main_arg1))) (Cert.ReferenceIdeal.Read.val_main_v9 (F := Ideal) (m ((c : Thread nD τ).loc main_arg1)))
/-- The third hidden layer. -/
abbrev h2 (c : Dev nD) : Cert.Gcn.Arr 50000 128 := Cert.Gcn.layerK (by norm_num : 0 < 50000) (h1 m c) (Cert.ReferenceIdeal.Read.val_main_v87 (F := Ideal) (m ((c : Thread nD τ).loc main_arg4))) (Cert.ReferenceIdeal.Read.val_main_v64 (F := Ideal) (m ((c : Thread nD τ).loc main_arg5))) (m ((c : Thread nD τ).loc main_arg6)) (Cert.ReferenceIdeal.Read.val_main_v114 (F := Ideal) (m ((c : Thread nD τ).loc main_arg7))) (Cert.ReferenceIdeal.Read.val_main_v110 (F := Ideal) (m ((c : Thread nD τ).loc main_arg8))) (Cert.ReferenceIdeal.Read.val_main_v11 (F := Ideal) (m ((c : Thread nD τ).loc main_arg1))) (Cert.ReferenceIdeal.Read.val_main_v17 (F := Ideal) (m ((c : Thread nD τ).loc main_arg1))) (Cert.ReferenceIdeal.Read.val_main_v9 (F := Ideal) (m ((c : Thread nD τ).loc main_arg1)))

theorem k0 (c : Dev nD) : W2 m ρ c (Proc.devRef .tc main_v24) = h0 m c := by
  refine (W2_arr m ρ c 5).trans ((final0 (V1 m ρ) c).trans ((congr5
    (fun (x : Cert.Gcn.Arr 50000 128) (w : Cert.Gcn.Arr 128 128) (b s t : Cert.Gcn.Arr 1 128) => Cert.Gcn.bnRelu (Cert.Gcn.mmT x w) (Cert.Gcn.row1 b) (Cert.Gcn.row1 s) (Cert.Gcn.row1 t))
    (b1_arg0 m ρ c) (b1_v16 m ρ c) (b1_v22 m ρ c) (b1_v21 m ρ c) (b1_v23 m ρ c)).trans ?_))
  rw [row1_reshape128, row1_reshape128, row1_reshape128]

theorem k1 (c : Dev nD) : W4 m ρ c (Proc.devRef .tc main_v29) = Cert.Gcn.scaleRows (Cert.Gcn.mmT (h0 m c) (Cert.ReferenceIdeal.Read.val_main_v49 (F := Ideal) (m ((c : Thread nD τ).loc main_arg4)))) (Cert.ReferenceIdeal.Read.val_main_v11 (F := Ideal) (m ((c : Thread nD τ).loc main_arg1))) := by
  refine (W4_arr m ρ c 3).trans ((final1 (V3 m ρ) c).trans ((congr3
    (fun (x : Cert.Gcn.Arr 50000 128) (w : Cert.Gcn.Arr 128 128) (d : Cert.Gcn.Arr 50000 1) => Cert.Gcn.scaleRows (Cert.Gcn.mmT x w) (Cert.Gcn.col1 d))
    ((b3_v24 m ρ c).trans (k0 m ρ c)) (b3_v27 m ρ c) (b3_v28 m ρ c)).trans ?_))
  rw [col1_reshape]

/-- What the host's gather and scatter-add leave for region 2. -/
theorem k2_agg (c : Dev nD) : V5 m ρ c main_v39 = Cert.Gcn.gatherSum (by norm_num : 0 < 50000) (Cert.Gcn.scaleRows (Cert.Gcn.mmT (h0 m c) (Cert.ReferenceIdeal.Read.val_main_v49 (F := Ideal) (m ((c : Thread nD τ).loc main_arg4)))) (Cert.ReferenceIdeal.Read.val_main_v11 (F := Ideal) (m ((c : Thread nD τ).loc main_arg1)))) (Cert.ReferenceIdeal.Read.val_main_v17 (F := Ideal) (m ((c : Thread nD τ).loc main_arg1))) (Cert.ReferenceIdeal.Read.val_main_v9 (F := Ideal) (m ((c : Thread nD τ).loc main_arg1))) :=
  (b5_v39 m ρ c).trans ((congrArg (fun u : Cert.Gcn.Arr 50000 128 => (Host.scatterAdd scatter_S50000x128_S850000x1_S850000x128_1_0_0_1 (broadcastInDim S50000x128 ![] bcast_S_S50000x128 (constant (F := Ideal) S_ .f32 0x00000000#32)) (Cert.ReferenceIdeal.Read.val_main_v9 (F := Ideal) (m ((c : Thread nD τ).loc main_arg1))) (Host.gather gather_S50000x128_S850000x1_S850000x128_1_0_n_n_0_1_1128 (u) (Cert.ReferenceIdeal.Read.val_main_v17 (F := Ideal) (m ((c : Thread nD τ).loc main_arg1)))) : S50000x128.Idx → EReal)) (k1 m ρ c)).trans (conv_host_kernel _ _ _))

theorem k2_h (c : Dev nD) : W6 m ρ c (Proc.devRef .tc main_v53_0) = h1 m c := by
  refine (W6_arr m ρ c 7).trans ((final2_7 (V5 m ρ) c).trans ((congr6
    (fun (a : Cert.Gcn.Arr 50000 128) (d : Cert.Gcn.Arr 50000 1) (w : Cert.Gcn.Arr 128 128) (b s t : Cert.Gcn.Arr 1 128) =>
      Cert.Gcn.bnRelu (Cert.Gcn.mmT (Cert.Gcn.scaleRows a (Cert.Gcn.col1 d)) w) (Cert.Gcn.row1 b) (Cert.Gcn.row1 s) (Cert.Gcn.row1 t))
    (k2_agg m ρ c) (b5_v52 m ρ c) (b5_v44 m ρ c) (b5_v50 m ρ c) (b5_v49 m ρ c) (b5_v51 m ρ c)).trans ?_))
  rw [col1_reshape, row1_reshape128, row1_reshape128, row1_reshape128]
  rfl

theorem k2_jk (c : Dev nD) : W6 m ρ c (Proc.devRef .tc main_v53_1) = Cert.Gcn.maxArr (h0 m c) (h1 m c) := by
  refine (W6_arr m ρ c 8).trans ((final2_8 (V5 m ρ) c).trans ((congr7
    (fun (a : Cert.Gcn.Arr 50000 128) (d : Cert.Gcn.Arr 50000 1) (w : Cert.Gcn.Arr 128 128) (b s t : Cert.Gcn.Arr 1 128) (j : Cert.Gcn.Arr 50000 128) =>
      Cert.Gcn.maxArr j (Cert.Gcn.bnRelu (Cert.Gcn.mmT (Cert.Gcn.scaleRows a (Cert.Gcn.col1 d)) w) (Cert.Gcn.row1 b) (Cert.Gcn.row1 s) (Cert.Gcn.row1 t)))
    (k2_agg m ρ c) (b5_v52 m ρ c) (b5_v44 m ρ c) (b5_v50 m ρ c) (b5_v49 m ρ c) (b5_v51 m ρ c)
    ((b5_v24 m ρ c).trans (k0 m ρ c))).trans ?_))
  rw [col1_reshape, row1_reshape128, row1_reshape128, row1_reshape128]
  rfl

theorem k3 (c : Dev nD) : W8 m ρ c (Proc.devRef .tc main_v58) = Cert.Gcn.scaleRows (Cert.Gcn.mmT (h1 m c) (Cert.ReferenceIdeal.Read.val_main_v87 (F := Ideal) (m ((c : Thread nD τ).loc main_arg4)))) (Cert.ReferenceIdeal.Read.val_main_v11 (F := Ideal) (m ((c : Thread nD τ).loc main_arg1))) := by
  refine (W8_arr m ρ c 3).trans ((final3 (V7 m ρ) c).trans ((congr3
    (fun (x : Cert.Gcn.Arr 50000 128) (w : Cert.Gcn.Arr 128 128) (d : Cert.Gcn.Arr 50000 1) => Cert.Gcn.scaleRows (Cert.Gcn.mmT x w) (Cert.Gcn.col1 d))
    ((b7_v53_0 m ρ c).trans (k2_h m ρ c)) (b7_v56 m ρ c) (b7_v57 m ρ c)).trans ?_))
  rw [col1_reshape]

/-- What the host's gather and scatter-add leave for region 4. -/
theorem k4_agg (c : Dev nD) : V9 m ρ c main_v68 = Cert.Gcn.gatherSum (by norm_num : 0 < 50000) (Cert.Gcn.scaleRows (Cert.Gcn.mmT (h1 m c) (Cert.ReferenceIdeal.Read.val_main_v87 (F := Ideal) (m ((c : Thread nD τ).loc main_arg4)))) (Cert.ReferenceIdeal.Read.val_main_v11 (F := Ideal) (m ((c : Thread nD τ).loc main_arg1)))) (Cert.ReferenceIdeal.Read.val_main_v17 (F := Ideal) (m ((c : Thread nD τ).loc main_arg1))) (Cert.ReferenceIdeal.Read.val_main_v9 (F := Ideal) (m ((c : Thread nD τ).loc main_arg1))) :=
  (b9_v68 m ρ c).trans ((congrArg (fun u : Cert.Gcn.Arr 50000 128 => (Host.scatterAdd scatter_S50000x128_S850000x1_S850000x128_1_0_0_1 (broadcastInDim S50000x128 ![] bcast_S_S50000x128 (constant (F := Ideal) S_ .f32 0x00000000#32)) (Cert.ReferenceIdeal.Read.val_main_v9 (F := Ideal) (m ((c : Thread nD τ).loc main_arg1))) (Host.gather gather_S50000x128_S850000x1_S850000x128_1_0_n_n_0_1_1128 (u) (Cert.ReferenceIdeal.Read.val_main_v17 (F := Ideal) (m ((c : Thread nD τ).loc main_arg1)))) : S50000x128.Idx → EReal)) (k3 m ρ c)).trans (conv_host_kernel _ _ _))

theorem k4_jk (c : Dev nD) : W10 m ρ c (Proc.devRef .tc main_v82_1) = Cert.Gcn.maxArr (Cert.Gcn.maxArr (h0 m c) (h1 m c)) (h2 m c) := by
  refine (W10_arr m ρ c 8).trans ((final4_8 (V9 m ρ) c).trans ((congr7
    (fun (a : Cert.Gcn.Arr 50000 128) (d : Cert.Gcn.Arr 50000 1) (w : Cert.Gcn.Arr 128 128) (b s t : Cert.Gcn.Arr 1 128) (j : Cert.Gcn.Arr 50000 128) =>
      Cert.Gcn.maxArr j (Cert.Gcn.bnRelu (Cert.Gcn.mmT (Cert.Gcn.scaleRows a (Cert.Gcn.col1 d)) w) (Cert.Gcn.row1 b) (Cert.Gcn.row1 s) (Cert.Gcn.row1 t)))
    (k4_agg m ρ c) (b9_v81 m ρ c) (b9_v73 m ρ c) (b9_v79 m ρ c) (b9_v78 m ρ c) (b9_v80 m ρ c)
    ((b9_v53_1 m ρ c).trans (k2_jk m ρ c))).trans ?_))
  rw [col1_reshape, row1_reshape128, row1_reshape128, row1_reshape128]
  rfl

/-- The result array at the last boundary is the network's first form of the argument arrays. -/
theorem k5 (c : Dev nD) : W12 m ρ c (Proc.devRef .tc main_v87)
    = Cert.Gcn.outK (by norm_num : 0 < 50000) (m ((c : Thread nD τ).loc main_arg0)) (Cert.ReferenceIdeal.Read.val_main_v27 (F := Ideal) (m ((c : Thread nD τ).loc main_arg2))) (m ((c : Thread nD τ).loc main_arg3)) (Cert.ReferenceIdeal.Read.val_main_v39 (F := Ideal) (m ((c : Thread nD τ).loc main_arg7))) (Cert.ReferenceIdeal.Read.val_main_v35 (F := Ideal) (m ((c : Thread nD τ).loc main_arg8))) (Cert.ReferenceIdeal.Read.val_main_v49 (F := Ideal) (m ((c : Thread nD τ).loc main_arg4))) (Cert.ReferenceIdeal.Read.val_main_v87 (F := Ideal) (m ((c : Thread nD τ).loc main_arg4))) (Cert.ReferenceIdeal.Read.val_main_v64 (F := Ideal) (m ((c : Thread nD τ).loc main_arg5))) (m ((c : Thread nD τ).loc main_arg6)) (Cert.ReferenceIdeal.Read.val_main_v76 (F := Ideal) (m ((c : Thread nD τ).loc main_arg7))) (Cert.ReferenceIdeal.Read.val_main_v72 (F := Ideal) (m ((c : Thread nD τ).loc main_arg8))) (Cert.ReferenceIdeal.Read.val_main_v114 (F := Ideal) (m ((c : Thread nD τ).loc main_arg7))) (Cert.ReferenceIdeal.Read.val_main_v110 (F := Ideal) (m ((c : Thread nD τ).loc main_arg8))) (Cert.ReferenceIdeal.Read.val_main_v123 (F := Ideal) (m ((c : Thread nD τ).loc main_arg9))) (m ((c : Thread nD τ).loc main_arg10)) (Cert.ReferenceIdeal.Read.val_main_v128 (F := Ideal) (m ((c : Thread nD τ).loc main_arg11))) (m ((c : Thread nD τ).loc main_arg12)) (Cert.ReferenceIdeal.Read.val_main_v11 (F := Ideal) (m ((c : Thread nD τ).loc main_arg1))) (Cert.ReferenceIdeal.Read.val_main_v17 (F := Ideal) (m ((c : Thread nD τ).loc main_arg1))) (Cert.ReferenceIdeal.Read.val_main_v9 (F := Ideal) (m ((c : Thread nD τ).loc main_arg1))) := by
  refine (W12_arr m ρ c 5).trans ((final5 (V11 m ρ) c).trans ((congr5
    (fun (j : Cert.Gcn.Arr 50000 128) (f : Cert.Gcn.Arr 128 128) (fb : Cert.Gcn.Arr 1 128) (o : Cert.Gcn.Arr 128 40) (ob : Cert.Gcn.Arr 1 40) => Cert.Gcn.head j f (Cert.Gcn.row1 fb) o (Cert.Gcn.row1 ob))
    ((b11_v82_1 m ρ c).trans (k4_jk m ρ c)) (b11_v83 m ρ c) (b11_v85 m ρ c) (b11_v84 m ρ c) (b11_v86 m ρ c)).trans ?_))
  rw [row1_reshape128, row1_reshape40]
  rfl

/-- The idealized kernel program's run: the result ends at the network's first form of the argument arrays, the
    arguments as launched. -/
theorem kernel_run : θ_run defs (onTc (τ := τ) (main (F := Ideal))) ⟨m, fun _ => 0, ρ⟩ (fun r => ∀ c : Dev nD,
      r.2.mem ((c.tc : Thread nD τ).loc main_v87)
        = Cert.Gcn.outK (by norm_num : 0 < 50000) (m ((c : Thread nD τ).loc main_arg0)) (Cert.ReferenceIdeal.Read.val_main_v27 (F := Ideal) (m ((c : Thread nD τ).loc main_arg2))) (m ((c : Thread nD τ).loc main_arg3)) (Cert.ReferenceIdeal.Read.val_main_v39 (F := Ideal) (m ((c : Thread nD τ).loc main_arg7))) (Cert.ReferenceIdeal.Read.val_main_v35 (F := Ideal) (m ((c : Thread nD τ).loc main_arg8))) (Cert.ReferenceIdeal.Read.val_main_v49 (F := Ideal) (m ((c : Thread nD τ).loc main_arg4))) (Cert.ReferenceIdeal.Read.val_main_v87 (F := Ideal) (m ((c : Thread nD τ).loc main_arg4))) (Cert.ReferenceIdeal.Read.val_main_v64 (F := Ideal) (m ((c : Thread nD τ).loc main_arg5))) (m ((c : Thread nD τ).loc main_arg6)) (Cert.ReferenceIdeal.Read.val_main_v76 (F := Ideal) (m ((c : Thread nD τ).loc main_arg7))) (Cert.ReferenceIdeal.Read.val_main_v72 (F := Ideal) (m ((c : Thread nD τ).loc main_arg8))) (Cert.ReferenceIdeal.Read.val_main_v114 (F := Ideal) (m ((c : Thread nD τ).loc main_arg7))) (Cert.ReferenceIdeal.Read.val_main_v110 (F := Ideal) (m ((c : Thread nD τ).loc main_arg8))) (Cert.ReferenceIdeal.Read.val_main_v123 (F := Ideal) (m ((c : Thread nD τ).loc main_arg9))) (m ((c : Thread nD τ).loc main_arg10)) (Cert.ReferenceIdeal.Read.val_main_v128 (F := Ideal) (m ((c : Thread nD τ).loc main_arg11))) (m ((c : Thread nD τ).loc main_arg12)) (Cert.ReferenceIdeal.Read.val_main_v11 (F := Ideal) (m ((c : Thread nD τ).loc main_arg1))) (Cert.ReferenceIdeal.Read.val_main_v17 (F := Ideal) (m ((c : Thread nD τ).loc main_arg1))) (Cert.ReferenceIdeal.Read.val_main_v9 (F := Ideal) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (k5 m ρ c), (h c).2⟩) (run_value (F := Ideal) m ρ)

end Cert.KernelIdeal.KValue

end
-- ==== Proof.RefIsSpec.lean ====
/-
  The host program of the two-layer graph convolution network, read stage by stage, is the network of the
  specification written with both node factors on each edge's message.

  The stages are grouped as the mathematics groups them. A STAGE of bias, scale, shift and clip at zero is the
  specification's `bnRelu`; a matrix product of the host is `mmT`; the gather of rows along the source column, the
  product with the edge weight `dis (source) · dis (destination)`, and the scatter-add along the destination column are
  `aggR`; these make one layer, which is used twice; the head is two affine maps.
-/
import proofs.«162505_j1623497638167_2_alg».proof.Proof.Gen.ReferenceIdeal.Read
import proofs.«162505_j1623497638167_2_alg».proof.Proof.Spec
import proofs.«162505_j1623497638167_2_alg».proof.Proof.LibMatmulSum
import proofs.«162505_j1623497638167_2_alg».proof.Proof.LibRowScatter
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The node-by-feature arrays, the square weight arrays, the feature vectors and the edge columns of the program. -/
abbrev TNode := FVec Ideal S50000x128 .f32
abbrev TW := FVec Ideal S128x128 .f32
abbrev TV := FVec Ideal S128 .f32
abbrev TBn := FVec Ideal S3x128 .f32
abbrev TEdges := IVec S2x800000 32

theorem nodes_pos : 0 < 50000 := by norm_num

/-! ### Bias, scale, shift, clip -/

/-- A feature vector broadcast to every node row, read at an index: the vector's entry at the column. -/
theorem rowBcast_apply (v : TV) (j : S50000x128.Idx) : val_main_v30 (F := Ideal) v j = v (ix1 (j 1)) := by
  rw [val_main_v30_apply, val_main_v29_apply]
  exact congrArg v (funext fun a => by match a with | ⟨0, _⟩ => rfl)

/-- The clip's zero array is zero at every index. -/
theorem zeros_apply (j : S50000x128.Idx) : val_main_call0_v0 (F := Ideal) j = 0 := by
  rw [val_main_call0_v0_apply, val_main_call0_cst_apply]
  exact Ideal.ofBits_zero_f32

/-- The stage of operations: add the bias row, multiply by the scale row, add the shift row, clip at zero. -/
def bnReluStage (z : TNode) (b sc bt : TV) : TNode :=
  maximumf (addf (mulf (addf z (val_main_v30 (F := Ideal) b)) (val_main_v30 (F := Ideal) sc)) (val_main_v30 (F := Ideal) bt))
    (val_main_call0_v0 (F := Ideal))

theorem bnReluStage_eq (z : TNode) (b sc bt : TV) : bnReluStage z b sc bt = Cert.Gcn.bnRelu z b sc bt := by
  funext j
  show max ((z j + val_main_v30 (F := Ideal) b j) * val_main_v30 (F := Ideal) sc j + val_main_v30 (F := Ideal) bt j)
    (val_main_call0_v0 (F := Ideal) j) = _
  rw [rowBcast_apply, rowBcast_apply, rowBcast_apply, zeros_apply]
  rfl

/-! ### The matrix products -/

theorem dot128_eq (l : TNode) (r : TW) :
    Host.dotGeneral (F := Ideal) (φ₁ := .f32) (φ₂ := .f32) dot_S50000x128_S128x128_S50000x128_1_0_0_1_n_n none l r = Cert.Gcn.mmT l r := by
  funext j
  exact MatmulSum.dotGeneral_apply _ rfl rfl rfl rfl rfl rfl _ _ l r j

/-! ### The first stage -/

theorem h0_eq (a0 : TNode) (a2 : TW) (a3 : TV) (a7 a8 : TBn) :
    val_main_v46 (F := Ideal) a0 a2 a3 a7 a8
      = Cert.Gcn.bnRelu (Cert.Gcn.mmT a0 (val_main_v27 (F := Ideal) a2)) a3 (val_main_v39 (F := Ideal) a7)
          (val_main_v35 (F := Ideal) a8) := by
  rw [← dot128_eq, ← bnReluStage_eq]
  rfl

/-! ### The edge weights -/
/-- A gather of entries of a vector along an index column reads, for edge `e`, the entry at the column's integer
    clamped into the vector's range. -/
theorem gather_entries_apply {N E : Nat} {α : Type} (g : GatherDims ⟨1, ![N]⟩ ⟨2, ![E, 1]⟩ ⟨1, ![E]⟩)
    (hod : g.offsetDims = []) (hcd : g.collapsedSliceDims = [0]) (hob : g.operandBatchingDims = [])
    (hsb : g.startIndicesBatchingDims = []) (hsm : g.startIndexMap = [0]) (hiv : g.indexVectorDim = 1)
    (hss : g.sliceSizes = ![1]) (hN : 0 < N) (x : (⟨1, ![N]⟩ : Shape).Idx → α) (idx : IVec ⟨2, ![E, 1]⟩ 32) (e : Fin E) :
    Host.gather g x idx (ix1 e) = x (ix1 (Cert.Gcn.srcRow hN idx e)) := by
  have hb : g.batchCoord (ix1 e) 0 = 0 := g.batchCoord_eq_zero _ _ (by rw [hob]; exact List.not_mem_nil)
  have ho : g.offCoord (ix1 e) 0 = 0 :=
    g.offCoord_eq_zero _ _ fun h => ((g.mem_sKept 0).1 h).1 (by rw [hcd]; exact List.mem_singleton.mpr rfl)
  have hs : g.start (ix1 e) idx 0 = min (idx (ix2 e (0 : Fin 1))).toInt.toNat (N - 1) := by
    obtain ⟨od, cd, ob, sb, sm, iv, ss, wf⟩ := g
    dsimp only at hod hcd hob hsb hsm hiv hss
    subst hod hcd hob hsb hsm hiv hss
    unfold GatherDims.start
    rw [dif_pos (List.mem_singleton.mpr rfl)]
    refine congrArg₂ min (congrArg (fun v => (idx v).toInt.toNat) ?_) rfl
    funext b
    refine Fin.ext ?_
    match b with
    | ⟨0, _⟩ => rfl
    | ⟨1, _⟩ => rfl
  unfold Host.gather
  congr 1
  funext a
  refine Fin.ext ?_
  match a with
  | ⟨0, _⟩ =>
    show g.start (ix1 e) idx 0 + g.batchCoord (ix1 e) 0 + g.offCoord (ix1 e) 0 = _
    rw [hb, hs, ho]
    rfl

/-- The weight of edge `e`: the node factor at its source times the node factor at its destination. -/
theorem weight_apply (a1 : TEdges) (e : Fin 850000) :
    val_main_v26 (F := Ideal) a1 (ix1 e)
      = val_main_v11 (F := Ideal) a1 (ix1 (Cert.Gcn.srcRow nodes_pos (val_main_v17 (F := Ideal) a1) e))
        * val_main_v11 (F := Ideal) a1 (ix1 (Cert.Gcn.srcRow nodes_pos (val_main_v24 (F := Ideal) a1) e)) := by
  rw [val_main_v26_apply, Ideal.mulf_def]
  unfold val_main_v18 val_main_v25
  rw [gather_entries_apply gather_S50000_S850000x1_S850000_n_0_n_n_0_1_1 rfl rfl rfl rfl rfl rfl rfl nodes_pos,
    gather_entries_apply gather_S50000_S850000x1_S850000_n_0_n_n_0_1_1 rfl rfl rfl rfl rfl rfl rfl nodes_pos]
/-- The weights broadcast along the features, read at an index: the weight of the row's edge. -/
theorem weightBcast_apply (a1 : TEdges) (e : Fin 850000) (c : Fin 128) :
    val_main_v59 (F := Ideal) a1 (ix2 e c) = val_main_v26 (F := Ideal) a1 (ix1 e) := by
  rw [val_main_v59_apply, val_main_v58_apply]
  exact congrArg (val_main_v26 (F := Ideal) a1) (funext fun a => by match a with | ⟨0, _⟩ => rfl)

/-! ### The aggregation over the edges -/

/-- Gather the rows of `y` along the source column, multiply entry by entry by weights that are, on edge `e`, the node
    factor at the source times the node factor at the destination, and scatter-add along the destination column into
    zeros: the aggregation with both factors on each edge's message. Stated for any extents and any arrays. -/
theorem gather_mul_scatter_eq {N E C : Nat} (hN : 0 < N)
    (d : ScatterDims ⟨2, ![N, C]⟩ ⟨2, ![E, 1]⟩ ⟨2, ![E, C]⟩) (huw : d.updateWindowDims = [1])
    (hiw : d.insertedWindowDims = [0]) (hsd : d.scatterDimsToOperandDims = [0]) (hiv : d.indexVectorDim = 1)
    (g : GatherDims ⟨2, ![N, C]⟩ ⟨2, ![E, 1]⟩ ⟨2, ![E, C]⟩) (hod : g.offsetDims = [1]) (hcd : g.collapsedSliceDims = [0])
    (hob : g.operandBatchingDims = []) (hsb : g.startIndicesBatchingDims = []) (hsm : g.startIndexMap = [0])
    (hgv : g.indexVectorDim = 1) (hss : g.sliceSizes = ![1, C])
    (zero y : FVec Ideal ⟨2, ![N, C]⟩ .f32) (hz : ∀ i, zero i = 0) (wt : FVec Ideal ⟨2, ![E, C]⟩ .f32)
    (dis : FVec Ideal ⟨1, ![N]⟩ .f32) (nsrc ndst dcol : IVec ⟨2, ![E, 1]⟩ 32)
    (hw : ∀ (e : Fin E) (c : Fin C),
      wt (ix2 e c) = dis (ix1 (Cert.Gcn.srcRow hN nsrc e)) * dis (ix1 (Cert.Gcn.srcRow hN ndst e))) :
    Host.scatterAdd (F := Ideal) d zero dcol (mulf (F := Ideal) (φ := .f32) (Host.gather g y nsrc) wt)
      = Cert.Gcn.aggR hN y dis nsrc ndst dcol := by
  funext j
  obtain ⟨n, c, rfl⟩ : ∃ (n : Fin N) (c : Fin C), j = ix2 n c := ⟨j 0, j 1, eq_ix2 j⟩
  unfold Host.scatterAdd
  rw [Ideal.hostScatterAdd_def, Cert.LibRowScatter.hostScatterAdd_rows_apply d huw hiw hsd hiv, hz]
  show 0 + ∑ e ∈ Cert.Gcn.lands dcol n, _ = 0 + ∑ e ∈ Cert.Gcn.lands dcol n, _
  refine congrArg (fun t => (0 : EReal) + t) (Finset.sum_congr rfl fun e _ => ?_)
  show Host.gather g y nsrc (ix2 e c) * wt (ix2 e c) = _
  rw [Cert.LibRowScatter.gather_rows_apply g hod hcd hob hsb hsm hgv hss hN, hw]
  rfl

/-- The scatter's zero array is zero at every index. -/
theorem scatterZeros_apply (j : S50000x128.Idx) : val_main_v61 (F := Ideal) j = 0 := by
  rw [val_main_v61_apply, val_main_cst_7_apply]
  exact Ideal.ofBits_zero_f32

/-- The layers recompute the normalized source column and the destination column: the same terms. -/
theorem srcCol_eq (a1 : TEdges) : val_main_v56 (F := Ideal) a1 = val_main_v17 (F := Ideal) a1 := rfl
theorem dstCol_eq (a1 : TEdges) : val_main_v62 (F := Ideal) a1 = val_main_v9 (F := Ideal) a1 := rfl

/-- The stage of operations: gather the rows along the source column, multiply by the edge weights, scatter-add along
    the destination column into zeros. -/
def aggStage (y : TNode) (a1 : TEdges) : TNode :=
  Host.scatterAdd (F := Ideal) scatter_S50000x128_S850000x1_S850000x128_1_0_0_1 (val_main_v61 (F := Ideal))
    (val_main_v62 (F := Ideal) a1)
    (mulf (F := Ideal) (φ := .f32)
      (Host.gather gather_S50000x128_S850000x1_S850000x128_1_0_n_n_0_1_1128 y (val_main_v56 (F := Ideal) a1))
      (val_main_v59 (F := Ideal) a1))

theorem aggStage_eq (y : TNode) (a1 : TEdges) :
    aggStage y a1 = Cert.Gcn.aggR nodes_pos y (val_main_v11 (F := Ideal) a1) (val_main_v17 (F := Ideal) a1)
      (val_main_v24 (F := Ideal) a1) (val_main_v9 (F := Ideal) a1) := by
  unfold aggStage
  rw [srcCol_eq, dstCol_eq]
  exact gather_mul_scatter_eq nodes_pos scatter_S50000x128_S850000x1_S850000x128_1_0_0_1 rfl rfl rfl rfl
    gather_S50000x128_S850000x1_S850000x128_1_0_n_n_0_1_1128 rfl rfl rfl rfl rfl rfl rfl
    (val_main_v61 (F := Ideal)) y scatterZeros_apply (val_main_v59 (F := Ideal) a1) (val_main_v11 (F := Ideal) a1)
    (val_main_v17 (F := Ideal) a1) (val_main_v24 (F := Ideal) a1) (val_main_v9 (F := Ideal) a1)
    (fun e c => by rw [weightBcast_apply, weight_apply])

/-! ### One layer -/

/-- The stage of operations of one layer: the product with the convolution weights, the aggregation, the product with
    the shared weights, then bias, scale, shift and clip. -/
def layerStage (h : TNode) (cwT wwT : TW) (wb sc bt : TV) (a1 : TEdges) : TNode :=
  bnReluStage
    (Host.dotGeneral (F := Ideal) (φ₁ := .f32) (φ₂ := .f32) dot_S50000x128_S128x128_S50000x128_1_0_0_1_n_n none
      (aggStage (Host.dotGeneral (F := Ideal) (φ₁ := .f32) (φ₂ := .f32) dot_S50000x128_S128x128_S50000x128_1_0_0_1_n_n none h cwT) a1)
      wwT)
    wb sc bt

theorem layerStage_eq (h : TNode) (cwT wwT : TW) (wb sc bt : TV) (a1 : TEdges) :
    layerStage h cwT wwT wb sc bt a1
      = Cert.Gcn.layerR nodes_pos h cwT wwT wb sc bt (val_main_v11 (F := Ideal) a1) (val_main_v17 (F := Ideal) a1)
          (val_main_v24 (F := Ideal) a1) (val_main_v9 (F := Ideal) a1) := by
  unfold layerStage Cert.Gcn.layerR
  rw [bnReluStage_eq, dot128_eq, aggStage_eq, dot128_eq]

/-! ### The program's layers are the layer -/

/-- The first layer's stage is the layer of the first stage. -/
theorem h1_stage (a0 : TNode) (a1 : TEdges) (a2 : TW) (a3 : TV) (a4 : FVec Ideal S2x128x128 .f32) (a5 : TW) (a6 : TV) (a7 a8 : TBn) :
    val_main_v83 (F := Ideal) a0 a1 a2 a3 a4 a5 a6 a7 a8
      = layerStage (val_main_v46 (F := Ideal) a0 a2 a3 a7 a8) (val_main_v49 (F := Ideal) a4) (val_main_v64 (F := Ideal) a5) a6
          (val_main_v76 (F := Ideal) a7) (val_main_v72 (F := Ideal) a8) a1 := rfl

/-- The second layer's stage is the layer of the first layer's stage. -/
theorem h2_stage (a0 : TNode) (a1 : TEdges) (a2 : TW) (a3 : TV) (a4 : FVec Ideal S2x128x128 .f32) (a5 : TW) (a6 : TV) (a7 a8 : TBn) :
    val_main_v121 (F := Ideal) a0 a1 a2 a3 a4 a5 a6 a7 a8
      = layerStage (val_main_v83 (F := Ideal) a0 a1 a2 a3 a4 a5 a6 a7 a8) (val_main_v87 (F := Ideal) a4) (val_main_v64 (F := Ideal) a5) a6
          (val_main_v114 (F := Ideal) a7) (val_main_v110 (F := Ideal) a8) a1 := rfl

/-! ### The head -/

theorem maximumf_eq (a b : TNode) : maximumf (F := Ideal) a b = Cert.Gcn.maxArr a b := rfl

/-- A vector of class scores broadcast to every node row, read at an index. -/
theorem rowBcast40_apply (v : FVec Ideal S40 .f32) (j : S50000x40.Idx) : val_main_v131 (F := Ideal) v j = v (ix1 (j 1)) := by
  rw [val_main_v131_apply, val_main_v130_apply]
  exact congrArg v (funext fun a => by match a with | ⟨0, _⟩ => rfl)

theorem addRow128_eq (z : TNode) (b : TV) : addf (F := Ideal) z (val_main_v30 (F := Ideal) b) = Cert.Gcn.addRow z b := by
  funext j
  show z j + val_main_v30 (F := Ideal) b j = z j + b (ix1 (j 1))
  rw [rowBcast_apply]

theorem addRow40_eq (z : FVec Ideal S50000x40 .f32) (b : FVec Ideal S40 .f32) :
    addf (F := Ideal) z (val_main_v131 (F := Ideal) b) = Cert.Gcn.addRow z b := by
  funext j
  show z j + val_main_v131 (F := Ideal) b j = z j + b (ix1 (j 1))
  rw [rowBcast40_apply]

theorem dot40_eq (l : TNode) (r : FVec Ideal S128x40 .f32) :
    Host.dotGeneral (F := Ideal) (φ₁ := .f32) (φ₂ := .f32) dot_S50000x128_S128x40_S50000x40_1_0_0_1_n_n none l r = Cert.Gcn.mmT l r := by
  funext j
  exact MatmulSum.dotGeneral_apply _ rfl rfl rfl rfl rfl rfl _ _ l r j

/-- The stage of operations of the head: two products, each followed by its bias row. -/
def headStage (jk : TNode) (fcT : TW) (fcb : TV) (outT : FVec Ideal S128x40 .f32) (outb : FVec Ideal S40 .f32) :
    FVec Ideal S50000x40 .f32 :=
  addf (F := Ideal)
    (Host.dotGeneral (F := Ideal) (φ₁ := .f32) (φ₂ := .f32) dot_S50000x128_S128x40_S50000x40_1_0_0_1_n_n none
      (addf (F := Ideal)
        (Host.dotGeneral (F := Ideal) (φ₁ := .f32) (φ₂ := .f32) dot_S50000x128_S128x128_S50000x128_1_0_0_1_n_n none jk fcT)
        (val_main_v30 (F := Ideal) fcb))
      outT)
    (val_main_v131 (F := Ideal) outb)

theorem headStage_eq (jk : TNode) (fcT : TW) (fcb : TV) (outT : FVec Ideal S128x40 .f32) (outb : FVec Ideal S40 .f32) :
    headStage jk fcT fcb outT outb = Cert.Gcn.head jk fcT fcb outT outb := by
  unfold headStage Cert.Gcn.head
  rw [addRow40_eq, dot40_eq, addRow128_eq, dot128_eq]

/-- The result's stage is the head of the maximum of the three stages. -/
theorem result_stage (a0 : TNode) (a1 : TEdges) (a2 : TW) (a3 : TV) (a4 : FVec Ideal S2x128x128 .f32) (a5 : TW) (a6 : TV)
    (a7 a8 : TBn) (a9 : TW) (a10 : TV) (a11 : FVec Ideal S40x128 .f32) (a12 : FVec Ideal S40 .f32) :
    val_main_v132 (F := Ideal) a0 a1 a2 a3 a4 a5 a6 a7 a8 a9 a10 a11 a12
      = headStage
          (maximumf (F := Ideal)
            (maximumf (F := Ideal) (val_main_v46 (F := Ideal) a0 a2 a3 a7 a8) (val_main_v83 (F := Ideal) a0 a1 a2 a3 a4 a5 a6 a7 a8))
            (val_main_v121 (F := Ideal) a0 a1 a2 a3 a4 a5 a6 a7 a8))
          (val_main_v123 (F := Ideal) a9) a10 (val_main_v128 (F := Ideal) a11) a12 := rfl

/-! ### The result -/

/-- THE REFERENCE'S RESULT is the network with both node factors on each edge's message, of the arguments and of the
    host's own index columns, node factors and transposed weights. -/
theorem result_eq (a0 : TNode) (a1 : TEdges) (a2 : TW) (a3 : TV) (a4 : FVec Ideal S2x128x128 .f32) (a5 : TW) (a6 : TV)
    (a7 a8 : TBn) (a9 : TW) (a10 : TV) (a11 : FVec Ideal S40x128 .f32) (a12 : FVec Ideal S40 .f32) :
    val_main_v132 (F := Ideal) a0 a1 a2 a3 a4 a5 a6 a7 a8 a9 a10 a11 a12
      = Cert.Gcn.outR nodes_pos a0 (val_main_v27 (F := Ideal) a2) a3 (val_main_v39 (F := Ideal) a7) (val_main_v35 (F := Ideal) a8)
          (val_main_v49 (F := Ideal) a4) (val_main_v87 (F := Ideal) a4) (val_main_v64 (F := Ideal) a5) a6
          (val_main_v76 (F := Ideal) a7) (val_main_v72 (F := Ideal) a8) (val_main_v114 (F := Ideal) a7) (val_main_v110 (F := Ideal) a8)
          (val_main_v123 (F := Ideal) a9) a10 (val_main_v128 (F := Ideal) a11) a12
          (val_main_v11 (F := Ideal) a1) (val_main_v17 (F := Ideal) a1) (val_main_v24 (F := Ideal) a1) (val_main_v9 (F := Ideal) a1) := by
  rw [result_stage, headStage_eq, maximumf_eq, maximumf_eq, h2_stage, h1_stage, layerStage_eq, layerStage_eq, h0_eq]
  rfl

end Cert.ReferenceIdeal.RefValue

end
-- ==== Proof.GraphFacts.lean ====
/-
  The facts about the graph data that the aggregation law needs, read off the reference program's first stages.

  The destination column holds, for every edge (the given edges followed by one self-loop per node), the number of
  the node the edge points to. An edge LANDS on node `n` when that number, read as a signed integer, is `n`.

  1. The gather of the per-node factor along the destinations first wraps negative numbers around (adds the node
     count to a negative number) and then clamps into the node range. On an edge landing on `n` the number is `n`,
     with `0 ≤ n < 50000`: it is not negative, it is left alone, and clamping it changes nothing. So the gathered
     row is `n`.

  2. The degree of a node is the scatter-add of ones into zeros along the destination column: the number of edges
     landing on it, a natural number. The per-node factor is its reciprocal square root. If at least one edge lands
     on `n` the degree is a natural number `k ≥ 1`, and `1/√k` is a non-negative real.
-/
import proofs.«162505_j1623497638167_2_alg».proof.Proof.Gen.ReferenceIdeal.Read
import proofs.«162505_j1623497638167_2_alg».proof.Proof.Spec
import proofs.«162505_j1623497638167_2_alg».proof.Proof.LibRowScatter
import Idealize.ShloMosaic.Lib.Affine
import Idealize.ShloMosaic.Lib.ValueIdx
import Idealize.ShloMosaic.PureOps.Ideal.Laws

noncomputable section

namespace Cert.ReferenceIdeal.Graph

open Cert.ReferenceIdeal Cert.ReferenceIdeal.Gen Idealize.ShloMosaic Idealize.ShloMosaic.ValueIdx Cert.Gcn

/-! ### One 32-bit word -/

/-- A word whose signed value is a node number `n < 50000` is not negative, so the wrap-around leaves it alone, and
    clamping it into the node range gives `n` back. -/
theorem word_clamp (x : BitVec 32) (n : Nat) (hn : n < 50000) (hx : x.toInt = (n : Int)) :
    min (Scalar.select (IntOp.cmpi .slt x 0#32) (IntOp.addi x 50000#32) x).toInt.toNat (50000 - 1) = n := by
  have hc : ¬ IntOp.cmpi .slt x 0#32 = 1#1 := by
    rw [IntOp.cmpi_slt, BitVec.toInt_zero]
    omega
  have hs : Scalar.select (IntOp.cmpi .slt x 0#32) (IntOp.addi x 50000#32) x = x := if_neg hc
  rw [hs, hx]
  omega

/-! ### The gathered destination row -/

/-- On an edge landing on `n` the destination gather reads row `n`. -/
theorem dst_eq (a1 : (⟨S2x800000, .i32⟩ : BufTy).Contents (Elt Ideal)) (n : Fin 50000)
    (e : Fin 850000) (he : e ∈ lands (Read.val_main_v9 (F := Ideal) a1) n) :
    srcRow (by norm_num : 0 < 50000) (Read.val_main_v24 (F := Ideal) a1) e = n := by
  have hl : (Read.val_main_v9 (F := Ideal) a1 (ix2 e (0 : Fin 1))).toInt = (n.val : Int) :=
    (Finset.mem_filter.mp he).2
  refine Fin.ext ?_
  show min (Read.val_main_v24 (F := Ideal) a1 (ix2 e (0 : Fin 1))).toInt.toNat (50000 - 1) = n.val
  rw [Read.val_main_v9_apply] at hl
  rw [Read.val_main_v24_apply, Read.val_main_v23_apply, Read.val_main_v20_apply, Read.val_main_v22_apply,
    Read.val_main_v19_apply, Read.val_main_c_2_apply, Read.val_main_v21_apply, Read.val_main_c_3_apply]
  exact word_clamp _ n.val n.isLt hl

/-! ### The one-axis scatter: where an update lands -/

section Scatter1

variable {N E w : Nat} (d : ScatterDims ⟨1, ![N]⟩ ⟨2, ![E, 1]⟩ ⟨1, ![E]⟩)

/-- The window of update `j` starts at the integer in row `j` of the index column, read signed. -/
theorem start1 (huw : d.updateWindowDims = []) (hiw : d.insertedWindowDims = [0])
    (hsd : d.scatterDimsToOperandDims = [0]) (hiv : d.indexVectorDim = 1) (idx : IVec ⟨2, ![E, 1]⟩ w)
    (j : (⟨1, ![E]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- The only operand axis is inserted: an update is a single element, with no window coordinate. -/
theorem window1 (huw : d.updateWindowDims = []) (hiw : d.insertedWindowDims = [0])
    (hsd : d.scatterDimsToOperandDims = [0]) (hiv : d.indexVectorDim = 1)
    (j : (⟨1, ![E]⟩ : Shape).Idx) : d.window j 0 = 0 := by
  obtain ⟨uw, iw, sd, iv, wf⟩ := d
  dsimp only at huw hiw hsd hiv
  subst huw hiw hsd hiv
  unfold ScatterDims.window
  exact dif_neg (show (0 : Fin 1) ∉ ([] : List (Fin 1)) from List.not_mem_nil)

/-- Update `j` lands on element `i` exactly when the integer in row `j` of the index column is `i`. -/
theorem scatter1_resultIdx?_eq_some_iff (huw : d.updateWindowDims = []) (hiw : d.insertedWindowDims = [0])
    (hsd : d.scatterDimsToOperandDims = [0]) (hiv : d.indexVectorDim = 1) (idx : IVec ⟨2, ![E, 1]⟩ w)
    (j : (⟨1, ![E]⟩ : Shape).Idx) (i : (⟨1, ![N]⟩ : Shape).Idx) :
    d.resultIdx? j idx = some i ↔ (idx (ix2 (j 0) (0 : Fin 1))).toInt = ((i 0).val : Int) := by
  have hs0 := start1 d huw hiw hsd hiv idx j
  have hw0 := window1 d huw hiw hsd hiv j
  have hi0 : (i 0).val < N := (i 0).isLt
  unfold ScatterDims.resultIdx?
  constructor
  · intro h
    split at h
    · rename_i hr
      have hi := Option.some.inj h
      have e0 := congrArg (fun f => (f 0).val) hi
      have r0 := hr 0
      simp only [hs0, hw0] at e0 r0
      omega
    · exact absurd h (by simp)
  · intro h0
    have hr : ∀ a, 0 ≤ d.start j idx a + d.window j a ∧
        d.start j idx a + d.window j a < (⟨1, ![N]⟩ : Shape).size a := by
      intro a
      match a with
      | ⟨0, _⟩ =>
        show 0 ≤ d.start j idx 0 + d.window j 0 ∧ d.start j idx 0 + d.window j 0 < ((N : Nat) : Int)
        rw [hs0, hw0]; omega
    rw [dif_pos hr]
    congr 1
    funext a
    refine Fin.ext ?_
    match a with
    | ⟨0, _⟩ =>
      show (d.start j idx 0 + d.window j 0).toNat = (i 0).val
      rw [hs0, hw0]; omega

end Scatter1

/-! ### The degree and the per-node factor -/

/-- The reciprocal square root of a natural number `k ≥ 1` is the non-negative real `1/√k`. -/
theorem rsqrt_natCast_pos (k : ℕ) (hk : 1 ≤ k) :
    0 ≤ Ideal.rsqrt (k : EReal) ∧ Ideal.rsqrt (k : EReal) ≠ ⊤ := by
  have hr : (0 : ℝ) < (k : ℝ) := by exact_mod_cast hk
  have h : Ideal.rsqrt (k : EReal) = (((Real.sqrt (k : ℝ))⁻¹ : ℝ) : EReal) := by
    rw [← EReal.coe_natCast, Ideal.rsqrt_coe, if_neg (not_lt.mpr hr.le), if_neg hr.ne']
  rw [h]
  exact ⟨EReal.coe_nonneg.mpr (inv_nonneg.mpr (Real.sqrt_nonneg _)), EReal.coe_ne_top _⟩

/-- Scatter ones into zeros along the destination column and take the reciprocal square root: at a node on which at
    least one edge lands, the degree is a natural number `k ≥ 1` and the factor is a non-negative real. -/
theorem degree_factor {N E : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1) (dcol : Col E) (n : Fin N)
    (hne : lands dcol n ≠ ∅) :
    0 ≤ Ideal.rsqrt (Ideal.hostScatterAdd d (fun _ => (0 : EReal)) dcol (fun _ => (1 : EReal)) (ix1 n)) ∧
      Ideal.rsqrt (Ideal.hostScatterAdd d (fun _ => (0 : EReal)) dcol (fun _ => (1 : EReal)) (ix1 n)) ≠ ⊤ := by
  obtain ⟨e, he⟩ := Finset.nonempty_iff_ne_empty.mpr hne
  have hl : (dcol (ix2 e (0 : Fin 1))).toInt = (n.val : Int) := (Finset.mem_filter.mp he).2
  have hk : Ideal.hostScatterAdd d (fun _ => (0 : EReal)) dcol (fun _ => (1 : EReal)) (ix1 n)
      = ((Finset.univ.filter (fun j => d.resultIdx? j dcol = some (ix1 n))).card : EReal) := by
    unfold Ideal.hostScatterAdd
    rw [zero_add, Finset.sum_const, nsmul_one]
  have hpos : 1 ≤ (Finset.univ.filter (fun j => d.resultIdx? j dcol = some (ix1 n))).card :=
    Finset.card_pos.mpr ⟨ix1 e, Finset.mem_filter.mpr ⟨Finset.mem_univ _,
      (scatter1_resultIdx?_eq_some_iff d huw hiw hsd hiv dcol (ix1 e) (ix1 n)).mpr hl⟩⟩
  rw [hk]
  exact rsqrt_natCast_pos _ hpos

/-! ### The reference program's stages -/

/-- The scatter's operand is the zero vector. -/
theorem v8_eq : (Read.val_main_v8 (F := Ideal) : S50000.Idx → EReal) = fun _ => (0 : EReal) := by
  funext i
  rw [Read.val_main_v8_apply, Read.val_main_cst_0_apply]
  exact Ideal.ofBits_zero_f32

/-- The scatter's updates are all `1`. -/
theorem v7_eq : (Read.val_main_v7 (F := Ideal) : S850000.Idx → EReal) = fun _ => (1 : EReal) := by
  funext i
  rw [Read.val_main_v7_apply, Read.val_main_cst_apply]
  exact IdealRules.sign_bit.ideal_onePat .f32

/-- The degree vector: ones scattered into zeros along the destination column, colliding updates summed exactly. -/
theorem v10_eq (a1 : (⟨S2x800000, .i32⟩ : BufTy).Contents (Elt Ideal)) :
    Read.val_main_v10 (F := Ideal) a1
      = Ideal.hostScatterAdd scatter_S50000_S850000x1_S850000_n_0_0_1 (fun _ => (0 : EReal))
          (Read.val_main_v9 (F := Ideal) a1) (fun _ => (1 : EReal)) := by
  unfold Read.val_main_v10 Host.scatterAdd
  rw [Ideal.hostScatterAdd_def, v8_eq, v7_eq]

/-- Either no edge lands on `n`, or the factor at `n` is a non-negative real. -/
theorem factor (a1 : (⟨S2x800000, .i32⟩ : BufTy).Contents (Elt Ideal)) (n : Fin 50000) :
    lands (Read.val_main_v9 (F := Ideal) a1) n = ∅ ∨
      (0 ≤ Read.val_main_v11 (F := Ideal) a1 (ix1 n) ∧ Read.val_main_v11 (F := Ideal) a1 (ix1 n) ≠ ⊤) := by
  by_cases hE : lands (Read.val_main_v9 (F := Ideal) a1) n = ∅
  · exact Or.inl hE
  · refine Or.inr ?_
    have h11 : Read.val_main_v11 (F := Ideal) a1 (ix1 n)
        = Ideal.rsqrt (Ideal.hostScatterAdd scatter_S50000_S850000x1_S850000_n_0_0_1 (fun _ => (0 : EReal))
            (Read.val_main_v9 (F := Ideal) a1) (fun _ => (1 : EReal)) (ix1 n)) := by
      rw [Read.val_main_v11_apply, Ideal.hostUnary_rsqrt_def, v10_eq]
    rw [h11]
    exact degree_factor scatter_S50000_S850000x1_S850000_n_0_0_1 rfl rfl rfl rfl
      (Read.val_main_v9 (F := Ideal) a1) n hE

/-- THE GRAPH FACTS at node `n`. -/
theorem good (a1 : (⟨S2x800000, .i32⟩ : BufTy).Contents (Elt Ideal)) (n : Fin 50000) :
    GoodAt (by norm_num : 0 < 50000) (Read.val_main_v11 (F := Ideal) a1) (Read.val_main_v24 (F := Ideal) a1)
      (Read.val_main_v9 (F := Ideal) a1) n where
  dst_eq := fun e he => dst_eq a1 n e he
  factor := factor a1 n

end Cert.ReferenceIdeal.Graph

end
-- ==== Proof.lean ====
/-
  A two-layer graph convolution network, computed by six tiled kernels with host gathers and scatter-adds between
  them, against its plain array-program reference: the two agree on every input, entry by entry, over the extended
  reals.

  Both programs compute, per node, the factor `dis = 1/√degree` and the same first hidden layer. In each
  convolution the reference weights the message along edge `e` by `dis (source e) · dis (destination e)` and sums the
  messages per destination. The kernel program scales the rows of the dense product by `dis` before the gather,
  sums per destination, and scales the rows of the sum by `dis` once more before the layer's matrix product. The
  two are equal because the destination factor is constant over the edges landing on one node, and that factor is
  a non-negative real whenever an edge lands there (the degree counts exactly those edges), so it may be moved
  across the sum of extended reals; with no edge landing, both sums are empty. Everything else in the two programs
  — the matrix products, biases, scales, shifts, clippings, running maxima and the output head — is the same
  function, written over tiles in one program and over whole arrays in the other.

  The frames: each kernel program's run terminates without a fault and leaves its arguments unchanged (the
  generated frame modules); the reference's run is its generated run with the result dropped. The idealization
  rewrote no operation, so there is nothing to preserve beyond the program text.
-/
import proofs.«162505_j1623497638167_2_alg».proof.Defs
import proofs.«162505_j1623497638167_2_alg».proof.Proof.Gen.Kernel
import proofs.«162505_j1623497638167_2_alg».proof.Proof.Gen.Kernel.Skeleton
import proofs.«162505_j1623497638167_2_alg».proof.Proof.Gen.Kernel.Launch
import proofs.«162505_j1623497638167_2_alg».proof.Proof.Gen.Kernel.Points
import proofs.«162505_j1623497638167_2_alg».proof.Proof.Gen.Kernel.Frame
import proofs.«162505_j1623497638167_2_alg».proof.Proof.Gen.KernelIdeal
import proofs.«162505_j1623497638167_2_alg».proof.Proof.Gen.KernelIdeal.Skeleton
import proofs.«162505_j1623497638167_2_alg».proof.Proof.Gen.KernelIdeal.Launch
import proofs.«162505_j1623497638167_2_alg».proof.Proof.Gen.KernelIdeal.Points
import proofs.«162505_j1623497638167_2_alg».proof.Proof.Gen.KernelIdeal.Frame
import proofs.«162505_j1623497638167_2_alg».proof.Proof.Gen.ReferenceIdeal
import proofs.«162505_j1623497638167_2_alg».proof.Proof.Gen.Pre_finite_inputs
import proofs.«162505_j1623497638167_2_alg».proof.Proof.Gen.ReferenceIdeal.Run
import proofs.«162505_j1623497638167_2_alg».proof.Proof.Gen.ReferenceIdeal.Read
import proofs.«162505_j1623497638167_2_alg».proof.Proof.KStages
import proofs.«162505_j1623497638167_2_alg».proof.Proof.RefIsSpec
import proofs.«162505_j1623497638167_2_alg».proof.Proof.GraphFacts
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal := fun m ρ _ => Cert.KernelIdeal.Gen.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one function of the arguments: the kernel program's at the network's first
    form, the reference's at its second, and the two forms agree because the graph data are good at every node. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KValue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v132_eq m' c, e0, e1, e2, e3, e4, e5, e6, e7, e8, e9, e10, e11, e12,
    Cert.ReferenceIdeal.RefValue.result_eq]
  exact (Cert.Gcn.outK_eq_outR _ _ _ _ _ _ _ _ _ _ _ _ _ _ _ _ _ _ _ _ _ _
    (fun n => Cert.ReferenceIdeal.Graph.good _ n)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
